-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S64x128 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000x65 : Shape := ⟨2, ![100000, 65]⟩
abbrev S200000x1 : Shape := ⟨2, ![200000, 1]⟩
abbrev S200000 : Shape := ⟨1, ![200000]⟩
abbrev S200000x64 : Shape := ⟨2, ![200000, 64]⟩
abbrev S200000x65 : Shape := ⟨2, ![200000, 65]⟩
abbrev S64x64 : Shape := ⟨2, ![64, 64]⟩
abbrev S1x64 : Shape := ⟨2, ![1, 64]⟩
abbrev S5000x64 : Shape := ⟨2, ![5000, 64]⟩
abbrev S5000x65 : Shape := ⟨2, ![5000, 65]⟩
abbrev S5000x1 : Shape := ⟨2, ![5000, 1]⟩

abbrev nBuf : Space → Nat
  | .hbm => 154
  | .vmem => 9
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S64, .f32⟩
  | 4 => ⟨S1x1600000, .i32⟩
  | 5 => ⟨S1600000, .i32⟩
  | 6 => ⟨S1x1600000, .i32⟩
  | 7 => ⟨S1600000, .i32⟩
  | 8 => ⟨S_, .f32⟩
  | 9 => ⟨S100000x65, .f32⟩
  | 10 => ⟨S_, .f32⟩
  | 11 => ⟨S200000x1, .f32⟩
  | 12 => ⟨S200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x64, .f32⟩
  | 23 => ⟨S200000x65, .f32⟩
  | 24 => ⟨S_, .f32⟩
  | 25 => ⟨S100000x65, .f32⟩
  | 26 => ⟨S200000x1, .i32⟩
  | 27 => ⟨S100000x65, .f32⟩
  | 28 => ⟨S100000x65, .f32⟩
  | 29 => ⟨S200000, .i32⟩
  | 30 => ⟨S200000, .i32⟩
  | 31 => ⟨S_, .i32⟩
  | 32 => ⟨S200000, .i32⟩
  | 33 => ⟨S200000, .i1⟩
  | 34 => ⟨S_, .i32⟩
  | 35 => ⟨S200000, .i32⟩
  | 36 => ⟨S200000, .i32⟩
  | 37 => ⟨S200000, .i32⟩
  | 38 => ⟨S200000x1, .i32⟩
  | 39 => ⟨S200000x64, .f32⟩
  | 40 => ⟨S200000x65, .f32⟩
  | 41 => ⟨S_, .f32⟩
  | 42 => ⟨S100000x65, .f32⟩
  | 43 => ⟨S200000x1, .i32⟩
  | 44 => ⟨S100000x65, .f32⟩
  | 45 => ⟨S100000x65, .f32⟩
  | 46 => ⟨S200000, .i32⟩
  | 47 => ⟨S200000, .i32⟩
  | 48 => ⟨S_, .i32⟩
  | 49 => ⟨S200000, .i32⟩
  | 50 => ⟨S200000, .i1⟩
  | 51 => ⟨S_, .i32⟩
  | 52 => ⟨S200000, .i32⟩
  | 53 => ⟨S200000, .i32⟩
  | 54 => ⟨S200000, .i32⟩
  | 55 => ⟨S200000x1, .i32⟩
  | 56 => ⟨S200000x64, .f32⟩
  | 57 => ⟨S200000x65, .f32⟩
  | 58 => ⟨S_, .f32⟩
  | 59 => ⟨S100000x65, .f32⟩
  | 60 => ⟨S200000x1, .i32⟩
  | 61 => ⟨S100000x65, .f32⟩
  | 62 => ⟨S100000x65, .f32⟩
  | 63 => ⟨S200000, .i32⟩
  | 64 => ⟨S200000, .i32⟩
  | 65 => ⟨S_, .i32⟩
  | 66 => ⟨S200000, .i32⟩
  | 67 => ⟨S200000, .i1⟩
  | 68 => ⟨S_, .i32⟩
  | 69 => ⟨S200000, .i32⟩
  | 70 => ⟨S200000, .i32⟩
  | 71 => ⟨S200000, .i32⟩
  | 72 => ⟨S200000x1, .i32⟩
  | 73 => ⟨S200000x64, .f32⟩
  | 74 => ⟨S200000x65, .f32⟩
  | 75 => ⟨S_, .f32⟩
  | 76 => ⟨S100000x65, .f32⟩
  | 77 => ⟨S200000x1, .i32⟩
  | 78 => ⟨S100000x65, .f32⟩
  | 79 => ⟨S100000x65, .f32⟩
  | 80 => ⟨S200000, .i32⟩
  | 81 => ⟨S200000, .i32⟩
  | 82 => ⟨S_, .i32⟩
  | 83 => ⟨S200000, .i32⟩
  | 84 => ⟨S200000, .i1⟩
  | 85 => ⟨S_, .i32⟩
  | 86 => ⟨S200000, .i32⟩
  | 87 => ⟨S200000, .i32⟩
  | 88 => ⟨S200000, .i32⟩
  | 89 => ⟨S200000x1, .i32⟩
  | 90 => ⟨S200000x64, .f32⟩
  | 91 => ⟨S200000x65, .f32⟩
  | 92 => ⟨S_, .f32⟩
  | 93 => ⟨S100000x65, .f32⟩
  | 94 => ⟨S200000x1, .i32⟩
  | 95 => ⟨S100000x65, .f32⟩
  | 96 => ⟨S100000x65, .f32⟩
  | 97 => ⟨S200000, .i32⟩
  | 98 => ⟨S200000, .i32⟩
  | 99 => ⟨S_, .i32⟩
  | 100 => ⟨S200000, .i32⟩
  | 101 => ⟨S200000, .i1⟩
  | 102 => ⟨S_, .i32⟩
  | 103 => ⟨S200000, .i32⟩
  | 104 => ⟨S200000, .i32⟩
  | 105 => ⟨S200000, .i32⟩
  | 106 => ⟨S200000x1, .i32⟩
  | 107 => ⟨S200000x64, .f32⟩
  | 108 => ⟨S200000x65, .f32⟩
  | 109 => ⟨S_, .f32⟩
  | 110 => ⟨S100000x65, .f32⟩
  | 111 => ⟨S200000x1, .i32⟩
  | 112 => ⟨S100000x65, .f32⟩
  | 113 => ⟨S100000x65, .f32⟩
  | 114 => ⟨S200000, .i32⟩
  | 115 => ⟨S200000, .i32⟩
  | 116 => ⟨S_, .i32⟩
  | 117 => ⟨S200000, .i32⟩
  | 118 => ⟨S200000, .i1⟩
  | 119 => ⟨S_, .i32⟩
  | 120 => ⟨S200000, .i32⟩
  | 121 => ⟨S200000, .i32⟩
  | 122 => ⟨S200000, .i32⟩
  | 123 => ⟨S200000x1, .i32⟩
  | 124 => ⟨S200000x64, .f32⟩
  | 125 => ⟨S200000x65, .f32⟩
  | 126 => ⟨S_, .f32⟩
  | 127 => ⟨S100000x65, .f32⟩
  | _ => ⟨S100000x64, .f32⟩

abbrev hbmTy0_1 (i : Nat) : BufTy := match i % 128 with
  | 0 => ⟨S200000x1, .i32⟩
  | 1 => ⟨S100000x65, .f32⟩
  | 2 => ⟨S100000x65, .f32⟩
  | 3 => ⟨S200000, .i32⟩
  | 4 => ⟨S200000, .i32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x64, .f32⟩
  | 14 => ⟨S200000x65, .f32⟩
  | 15 => ⟨S_, .f32⟩
  | 16 => ⟨S100000x65, .f32⟩
  | 17 => ⟨S200000x1, .i32⟩
  | 18 => ⟨S100000x65, .f32⟩
  | 19 => ⟨S100000x65, .f32⟩
  | 20 => ⟨S64x64, .f32⟩
  | 21 => ⟨S64x64, .f32⟩
  | 22 => ⟨S64x64, .f32⟩
  | 23 => ⟨S64x64, .f32⟩
  | 24 => ⟨S1x64, .f32⟩
  | 25 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x65, .f32⟩
  | .local _ .vmem, ⟨3, _⟩ => ⟨S5000x65, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_11 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_c_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_14 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_c_15 : Ref sig .tc := ⟨.hbm, 99, rfl⟩
abbrev main_v78 : Ref sig .tc := ⟨.hbm, 100, rfl⟩
abbrev main_v79 : Ref sig .tc := ⟨.hbm, 101, rfl⟩
abbrev main_c_16 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_17 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_18 : Ref sig .tc := ⟨.hbm, 116, rfl⟩
abbrev main_v92 : Ref sig .tc := ⟨.hbm, 117, rfl⟩
abbrev main_v93 : Ref sig .tc := ⟨.hbm, 118, rfl⟩
abbrev main_c_19 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_20 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_c_21 : Ref sig .tc := ⟨.hbm, 133, rfl⟩
abbrev main_v106 : Ref sig .tc := ⟨.hbm, 134, rfl⟩
abbrev main_v107 : Ref sig .tc := ⟨.hbm, 135, rfl⟩
abbrev main_c_22 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_cst_23 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x65 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x65 : S_.BroadcastsInDim S100000x65 (![] : Fin 0 → Fin S100000x65.rank)
  bcast_S_S200000x1 : S_.BroadcastsInDim S200000x1 (![] : Fin 0 → Fin S200000x1.rank)
  slices_S1600000_S200000_0 : S1600000.Slices ![0] S200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x64_S200000x1_S200000x65_d1 : Shape.Concatenates [S200000x64, S200000x1] S200000x65 1
  slices_S1600000_S200000_200000 : S1600000.Slices ![200000] S200000
  slices_S1600000_S200000_400000 : S1600000.Slices ![400000] S200000
  slices_S1600000_S200000_600000 : S1600000.Slices ![600000] S200000
  slices_S1600000_S200000_800000 : S1600000.Slices ![800000] S200000
  slices_S1600000_S200000_1000000 : S1600000.Slices ![1000000] S200000
  slices_S1600000_S200000_1200000 : S1600000.Slices ![1200000] S200000
  slices_S1600000_S200000_1400000 : S1600000.Slices ![1400000] S200000
  slices_S64x128_S64x64_0_0 : S64x128.Slices ![0, 0] S64x64
  transposes_S64x64_S64x64_1_0 : S64x64.Transposes [1, 0] S64x64
  slices_S64x128_S64x64_0_64 : S64x128.Slices ![0, 64] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  slices_S5000x65_o0_0_S5000x64 : S5000x65.Slices ![0, 0] S5000x64
  slices_S5000x65_o0_64_S5000x1 : S5000x65.Slices ![0, 64] S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S200000x1_S200000x64_1_0_n_n_0_1_164_wf : GatherDims.WF S100000x64 S200000x1 S200000x64 [1] [0] [] [0] [] 1 ![1, 64]
  scatter_S100000x65_S200000x1_S200000x65_1_0_0_1_wf : ScatterDims.WF S100000x65 S200000x1 S200000x65 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x65.size a ≤ S100000x65.size a
  hwx0_1 : ∀ i : grid0.Coords, EltTy.bits .f32 = 32 ∨ (Rect.block (s := S100000x65) S5000x65.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def gather_S100000x64_S200000x1_S200000x64_1_0_n_n_0_1_164 : GatherDims S100000x64 S200000x1 S200000x64 where
  offsetDims := [1]
  collapsedSliceDims := [0]
  operandBatchingDims := []
  startIndicesBatchingDims := []
  startIndexMap := [0]
  indexVectorDim := 1
  sliceSizes := ![1, 64]
  wf := gather_S100000x64_S200000x1_S200000x64_1_0_n_n_0_1_164_wf
def scatter_S100000x65_S200000x1_S200000x65_1_0_0_1 : ScatterDims S100000x65 S200000x1 S200000x65 where
  updateWindowDims := [1]
  insertedWindowDims := [0]
  scatterDimsToOperandDims := [0]
  indexVectorDim := 1
  wf := scatter_S100000x65_S200000x1_S200000x65_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v117) S5000x65.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v119) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v121) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v122) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v123) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S100000x128 : Shape := ⟨2, ![100000, 128]⟩
abbrev S128x64 : Shape := ⟨2, ![128, 64]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S1600000x1, .f32⟩
  | .hbm, ⟨23, _⟩ => ⟨S_, .f32⟩
  | .hbm, ⟨24, _⟩ => ⟨S100000x1, .f32⟩
  | .hbm, ⟨25, _⟩ => ⟨S1600000x1, .i32⟩
  | .hbm, ⟨26, _⟩ => ⟨S100000x1, .f32⟩
  | .hbm, ⟨27, _⟩ => ⟨S_, .f32⟩
  | .hbm, ⟨28, _⟩ => ⟨S100000x1, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S128x64, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | .hbm, ⟨38, _⟩ => ⟨S_, .f32⟩
  | .hbm, ⟨39, _⟩ => ⟨S100000x64, .f32⟩
  | .hbm, ⟨40, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.SageSpec.lean ====
/-
  The function both programs compute, index by index, on the extended reals.

  Nodes carry feature rows x : [100000, 64]; edges are the columns of ei : [2, 1600000], edge e going to node
  ei(0, e) from node ei(1, e).  The destination word is read signed and an edge whose destination is outside
  [0, 100000) contributes to no node.  The source word is first normalised (a negative word has 100000 added),
  then read signed and clamped into [0, 99999]: that row of x is the edge's message.  Node n's aggregate is a row
  of 65 numbers: the 64 column sums of the messages of the edges into n, then the number of those edges (a sum
  of ones).  The mean is the column sum divided by (count + eps) for the f32 word eps of 1e-9.  The layer's
  output is  max(x · W1ᵀ + mean · W2ᵀ + b, 0)  where W = [W1 | W2] : [64, 128].
-/
import Idealize.ShloMosaic.PureOps.Ideal
import Idealize.ShloMosaic.Lib.ValueIdx

noncomputable section

namespace Cert.Sage

open Idealize.ShloMosaic Idealize.ShloMosaic.ValueIdx
open scoped BigOperators

/-- One tile of the layer over R rows: row p of the tile's output depends on row p of X and of A only.
    A's first 64 columns are sums, its last column a count. -/
def layer {R : ℕ} (X : (⟨2, ![R, 64]⟩ : Shape).Idx → EReal) (A : (⟨2, ![R, 65]⟩ : Shape).Idx → EReal)
    (W1 W2 : (⟨2, ![64, 64]⟩ : Shape).Idx → EReal) (B : (⟨2, ![1, 64]⟩ : Shape).Idx → EReal)
    (p : Fin R) (q : Fin 64) : EReal :=
  max (((∑ k : Fin 64, X (ix2 p k) * W1 (ix2 k q))
      + (∑ k : Fin 64, Ideal.div (A (ix2 p (⟨k.val, by omega⟩ : Fin 65)))
            (A (ix2 p (⟨64, by omega⟩ : Fin 65)) + Ideal.ofBits .f32 0x3089705F#32) * W2 (ix2 k q)))
      + B (ix2 (0 : Fin 1) q)) (Ideal.ofBits .f32 0x00000000#32)

/-- The tile as an array. -/
def layerArr {R : ℕ} (X : (⟨2, ![R, 64]⟩ : Shape).Idx → EReal) (A : (⟨2, ![R, 65]⟩ : Shape).Idx → EReal)
    (W1 W2 : (⟨2, ![64, 64]⟩ : Shape).Idx → EReal) (B : (⟨2, ![1, 64]⟩ : Shape).Idx → EReal) :
    (⟨2, ![R, 64]⟩ : Shape).Idx → EReal := fun i => layer X A W1 W2 B (i 0) (i 1)

/-- A source word normalised: a negative word has the node count added. -/
def normCol (v : BitVec 32) : BitVec 32 := Scalar.select (IntOp.cmpi .slt v 0#32) (IntOp.addi v 100000#32) v

/-- The node an edge's message is read from: the normalised word read signed, clamped into [0, 99999]. -/
def src (v : BitVec 32) : Fin 100000 := ⟨min (normCol v).toInt.toNat (100000 - 1), by omega⟩

/-- What one edge adds to column c of its destination's aggregate: its source's feature c, or one in the count column. -/
def edgeTerm (x : (⟨2, ![100000, 64]⟩ : Shape).Idx → EReal) (cw : BitVec 32) (c : Fin 65) : EReal :=
  if h : c.val < 64 then x (ix2 (src cw) (⟨c.val, h⟩ : Fin 64)) else Ideal.ofBits .f32 0x3F800000#32

/-- Column c of node n's aggregate: the sum over the edges into n. -/
def agg (x : (⟨2, ![100000, 64]⟩ : Shape).Idx → EReal) (ei : (⟨2, ![2, 1600000]⟩ : Shape).Idx → BitVec 32)
    (n : Fin 100000) (c : Fin 65) : EReal :=
  ∑ e ∈ Finset.univ.filter (fun e : Fin 1600000 => (ei (ix2 (0 : Fin 2) e)).toInt = (n.val : ℤ)),
    edgeTerm x (ei (ix2 (1 : Fin 2) e)) c

/-- The aggregates as an array [100000, 65]. -/
def aggArr (x : (⟨2, ![100000, 64]⟩ : Shape).Idx → EReal) (ei : (⟨2, ![2, 1600000]⟩ : Shape).Idx → BitVec 32) :
    (⟨2, ![100000, 65]⟩ : Shape).Idx → EReal := fun i => agg x ei (i 0) (i 1)

/-- The half of the weights that multiplies the node's own features, transposed: W1t(k, o) = W(o, k). -/
def W1t (W : (⟨2, ![64, 128]⟩ : Shape).Idx → EReal) : (⟨2, ![64, 64]⟩ : Shape).Idx → EReal :=
  fun i => W (ix2 (i 1) (⟨(i 0).val, by have := idx2_lt0 i; omega⟩ : Fin 128))

/-- The half that multiplies the mean, transposed: W2t(k, o) = W(o, 64 + k). -/
def W2t (W : (⟨2, ![64, 128]⟩ : Shape).Idx → EReal) : (⟨2, ![64, 64]⟩ : Shape).Idx → EReal :=
  fun i => W (ix2 (i 1) (⟨64 + (i 0).val, by have := idx2_lt0 i; omega⟩ : Fin 128))

/-- The bias as a row. -/
def brow (b : (⟨1, ![64]⟩ : Shape).Idx → EReal) : (⟨2, ![1, 64]⟩ : Shape).Idx → EReal := fun i => b (ix1 (i 1))

/-- THE LAYER: the output array as one function of the four argument arrays. -/
def G (x : (⟨2, ![100000, 64]⟩ : Shape).Idx → EReal) (ei : (⟨2, ![2, 1600000]⟩ : Shape).Idx → BitVec 32)
    (W : (⟨2, ![64, 128]⟩ : Shape).Idx → EReal) (b : (⟨1, ![64]⟩ : Shape).Idx → EReal) :
    (⟨2, ![100000, 64]⟩ : Shape).Idx → EReal :=
  layerArr x (aggArr x ei) (W1t W) (W2t W) (brow b)

/-- Row p of a tile's output depends on row p of its inputs only: a tile cut out of taller arrays at the rows
    f p computes those rows of the tall layer. -/
theorem layer_rows {R R' : ℕ} (f : Fin R → Fin R')
    (X : (⟨2, ![R, 64]⟩ : Shape).Idx → EReal) (A : (⟨2, ![R, 65]⟩ : Shape).Idx → EReal)
    (X' : (⟨2, ![R', 64]⟩ : Shape).Idx → EReal) (A' : (⟨2, ![R', 65]⟩ : Shape).Idx → EReal)
    (W1 W2 : (⟨2, ![64, 64]⟩ : Shape).Idx → EReal) (B : (⟨2, ![1, 64]⟩ : Shape).Idx → EReal)
    (hX : ∀ (p : Fin R) (k : Fin 64), X (ix2 p k) = X' (ix2 (f p) k))
    (hA : ∀ (p : Fin R) (k : Fin 65), A (ix2 p k) = A' (ix2 (f p) k)) (p : Fin R) (q : Fin 64) :
    layer X A W1 W2 B p q = layer X' A' W1 W2 B (f p) q := by
  unfold layer
  simp only [hX, hA]

/-- The tile's entry (p, q) is determined by row p of X and of A, the weights, the bias and q. -/
theorem layer_congr {R R' : ℕ}
    (X : (⟨2, ![R, 64]⟩ : Shape).Idx → EReal) (A : (⟨2, ![R, 65]⟩ : Shape).Idx → EReal)
    (X' : (⟨2, ![R', 64]⟩ : Shape).Idx → EReal) (A' : (⟨2, ![R', 65]⟩ : Shape).Idx → EReal)
    (W1 W2 W1' W2' : (⟨2, ![64, 64]⟩ : Shape).Idx → EReal) (B B' : (⟨2, ![1, 64]⟩ : Shape).Idx → EReal)
    (p : Fin R) (p' : Fin R') (q q' : Fin 64)
    (hX : ∀ k : Fin 64, X (ix2 p k) = X' (ix2 p' k)) (hA : ∀ k : Fin 65, A (ix2 p k) = A' (ix2 p' k))
    (hW1 : W1 = W1') (hW2 : W2 = W2') (hB : B = B') (hq : q = q') :
    layer X A W1 W2 B p q = layer X' A' W1' W2' B' p' q' := by
  subst hW1 hW2 hB hq
  unfold layer
  simp only [hX, hA]

end Cert.Sage

end
-- ==== Proof.LibDense.lean ====
/-
  General lemmas for dense (fully connected) layers, over variable extents, at the extended reals.

  * `plain_sum`: for the plain dimension numbers "M×K by K×N" (contract the left operand's axis 1 with the
    right operand's axis 0, no batch axis), the sum over the contraction index of the operands' products at the
    result index (i, j) is `∑ k : Fin K, l (i, k) * r (k, j)`.
  * `matmul_zero_plain` / `dotGeneral_plain`: hence a vector-unit matrix product into a zero accumulator, and the
    host's `dot_general`, read at (i, j), are both that sum.
  * `concat_cols_apply`: two matrices [n, a] and [n, b] laid side by side along axis 1, read at (r, k): the first at
    (r, k) when k < a, the second at (r, k − a) otherwise.
  * `spread_col_apply`: an [a, 1] column spread over b columns, read at (p, c), is the column at p.
  * `dense_apply`: a matrix product into the zero accumulator plus a [1, N] bias row spread down the rows, read at
    (r, j), is  (∑ k, l (r, k) * w (k, j)) + bias (0, j).
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibDense

open Idealize.ShloMosaic Idealize.ShloMosaic.ValueIdx

/-- The plain dimension numbers `<[1], [0], [0], [1], [], []>` over any well-formedness witness: two records with these
    axis lists differ only in that witness, so every printed record of this kind is one of these by unfolding. -/
abbrev plainOf {M K N : Nat}
    (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ :=
  { lhsContracting := [1], rhsContracting := [0], lhsNonContracting := [0], rhsNonContracting := [1],
    lhsBatch := [], rhsBatch := [], wf := wf }

section Plain
variable {M K N : Nat} (wf : DotDims.WF (⟨2, ![M, K]⟩ : Shape) ⟨2, ![K, N]⟩ ⟨2, ![M, N]⟩ [1] [0] [0] [1] [] [])

/-- The left operand's row is the result's row. -/
theorem lhs_row (i : (⟨2, ![M, N]⟩ : Shape).Idx) (q : (plainOf wf).contr.Idx) :
    ((plainOf wf).lhsIdx i q 0).val = (i 0).val := by
  unfold DotDims.lhsIdx
  rw [dif_neg (show ¬(0 : Fin 2) ∈ (plainOf wf).lhsBatch from List.not_mem_nil),
    dif_pos (show (0 : Fin 2) ∈ (plainOf wf).lhsNonContracting from List.mem_singleton.mpr rfl)]
  rfl

/-- The right operand's column is the result's column. -/
theorem rhs_col (i : (⟨2, ![M, N]⟩ : Shape).Idx) (q : (plainOf wf).contr.Idx) :
    ((plainOf wf).rhsIdx i q 1).val = (i 1).val := by
  unfold DotDims.rhsIdx
  rw [dif_neg (show ¬(1 : Fin 2) ∈ (plainOf wf).rhsBatch from List.not_mem_nil),
    dif_pos (show (1 : Fin 2) ∈ (plainOf wf).rhsNonContracting from List.mem_singleton.mpr rfl)]
  rfl

/-- The contraction sum of a plain product at (i, j), re-indexed by the one contracted coordinate. -/
theorem plain_sum (l : (⟨2, ![M, K]⟩ : Shape).Idx → EReal) (r : (⟨2, ![K, N]⟩ : Shape).Idx → EReal)
    (i : Fin M) (j : Fin N) :
    ∑ q : (plainOf wf).contr.Idx, l ((plainOf wf).lhsIdx (ix2 i j) q) * r ((plainOf wf).rhsIdx (ix2 i j) q)
      = ∑ k : Fin K, l (ix2 i k) * r (ix2 k j) := by
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 i j) ((contrEquiv1 (plainOf wf) K rfl rfl).symm k) = ix2 i k :=
    funext fun a => Fin.ext (by
      match a with
      | ⟨0, _⟩ => exact lhs_row wf _ _
      | ⟨1, _⟩ => exact ((plainOf wf).lhsIdx_val_of_single rfl _ _).trans hk)
  have er : (plainOf wf).rhsIdx (ix2 i j) ((contrEquiv1 (plainOf wf) K rfl rfl).symm k) = ix2 k j :=
    funext fun a => Fin.ext (by
      match a with
      | ⟨0, _⟩ => exact ((plainOf wf).rhsIdx_val_of_single rfl _ _).trans hk
      | ⟨1, _⟩ => exact rhs_col wf _ _)
  rw [el, er]

/-- A matrix product on the vector unit into the zero accumulator, read at (i, j): the plain sum. -/
theorem matmul_zero_plain {φ₁ φ₂ : FTy} (prec : Option ContractPrecision)
    (l : FVec Ideal (⟨2, ![M, K]⟩ : Shape) φ₁) (r : FVec Ideal (⟨2, ![K, N]⟩ : Shape) φ₂) (i : Fin M) (j : Fin N) :
    FloatOps.matmul (plainOf wf) prec l r (constant (⟨2, ![M, N]⟩ : Shape) .f32 0x00000000#32) (ix2 i j)
      = ∑ k : Fin K, l (ix2 i k) * r (ix2 k j) :=
  (Ideal.matmul_constant_zero_apply (plainOf wf) prec l r (ix2 i j)).trans (plain_sum wf l r i j)

/-- The host's `dot_general` with the plain dimension numbers, read at (i, j): the same sum. -/
theorem dotGeneral_plain {φ₁ φ₂ : FTy} (prec : Option ContractPrecision) (sched : HostSchedule)
    (l : FVec Ideal (⟨2, ![M, K]⟩ : Shape) φ₁) (r : FVec Ideal (⟨2, ![K, N]⟩ : Shape) φ₂) (i : Fin M) (j : Fin N) :
    FloatOps.dotGeneral (plainOf wf) prec sched l r (ix2 i j) = ∑ k : Fin K, l (ix2 i k) * r (ix2 k j) :=
  (Ideal.dotGeneral_apply (plainOf wf) prec sched l r (ix2 i j)).trans (plain_sum wf l r i j)

end Plain

section Layout
variable {α : Type}

/-- Two matrices side by side along axis 1, read at (r, k). -/
theorem concat_cols_apply {n a b c : Nat} (hc : a + b = c)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (r : Fin n) (k : Fin c) :
    concatenate (⟨2, ![n, c]⟩ : Shape) 1 [⟨⟨2, ![n, a]⟩, x⟩, ⟨⟨2, ![n, b]⟩, y⟩] h (ix2 r k)
      = if hk : k.val < a then x (ix2 r ⟨k.val, hk⟩) else y (ix2 r ⟨k.val - a, by have := k.isLt; omega⟩) := by
  by_cases hk : k.val < a
  · rw [dif_pos hk]
    exact concatenate_pair_apply_left 1 x y h (ix2 r k) rfl (ix2 r ⟨k.val, hk⟩)
      (fun d => by match d with | ⟨0, _⟩ => rfl | ⟨1, _⟩ => rfl)
  · rw [dif_neg hk]
    refine concatenate_pair_apply_right 1 x y h (ix2 r k) rfl rfl (ix2 r ⟨k.val - a, by have := k.isLt; omega⟩)
      (fun d hd => by
        match d with
        | ⟨0, _⟩ => rfl
        | ⟨1, _⟩ => exact absurd rfl hd) ?_
    show k.val - a + a = k.val
    omega

/-- An [a, 1] column spread over b columns, read at (p, c): the column's entry of row p. -/
theorem spread_col_apply {a b : Nat} (v : (⟨2, ![a, 1]⟩ : Shape).Idx → α)
    (h : (⟨2, ![a, 1]⟩ : Shape).Broadcasts ⟨2, ![a, b]⟩) (p : Fin a) (c : Fin b) :
    broadcastTo (⟨2, ![a, b]⟩ : Shape) v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A dense layer on the vector unit read at (r, j): the product into the zero accumulator is the plain sum, the bias
    row spread down the rows is the bias at column j. -/
theorem dense_apply {n K N : Nat}
    (wf : DotDims.WF (⟨2, ![n, K]⟩ : Shape) ⟨2, ![K, N]⟩ ⟨2, ![n, N]⟩ [1] [0] [0] [1] [] []) {φ₁ φ₂ : FTy}
    (l : FVec Ideal (⟨2, ![n, K]⟩ : Shape) φ₁) (w : FVec Ideal (⟨2, ![K, N]⟩ : Shape) φ₂)
    (bias : FVec Ideal (⟨2, ![1, N]⟩ : Shape) .f32) (hbc : (⟨2, ![1, N]⟩ : Shape).Broadcasts ⟨2, ![n, N]⟩)
    (r : Fin n) (j : Fin N) :
    addf (matmul (plainOf wf) none l w (constant (⟨2, ![n, N]⟩ : Shape) .f32 0x00000000#32))
        (broadcastTo (⟨2, ![n, N]⟩ : Shape) bias hbc) (ix2 r j)
      = (∑ k : Fin K, l (ix2 r k) * w (ix2 k j)) + bias (ix2 (0 : Fin 1) j) :=
  congrArg₂ (· + ·) (matmul_zero_plain wf none l w r j) (broadcastTo_1b_ab_apply bias hbc r j)

end Cert.LibDense

end
-- ==== Proof.LibTiles.lean ====
/-
  Tiles of matrices read at an index, over variable extents. A block of columns cut out of a matrix reads the matrix
  at the shifted column. A plain matrix product into a zero accumulator, at the extended reals, is at (p, c) the sum
  over the shared axis of the left factor's row p times the right factor's column c. A four-term sum written as a left
  nest, alone or on top of a first term, is the sum over `Fin 4`. The float words of 0 and 1 are 0 and 1.
-/
import Idealize.ShloMosaic.PureOps.Ideal.Laws
import Idealize.ShloMosaic.Lib.ValueIdx
import Idealize.ShloMosaic.Lib.Pipeline.Value

noncomputable section

namespace Cert.LibTiles

open Idealize.ShloMosaic Idealize.ShloMosaic.ValueIdx
open scoped BigOperators

variable {α : Type}

/-- Columns `o … o + C' − 1` of an `[R, C]` matrix, read at `(p, j)`: the matrix at `(p, o + j)`. -/
theorem sliceCols_apply {R C C' : ℕ} (o : ℕ) (v : (⟨2, ![R, C]⟩ : Shape).Idx → α)
    (h : (⟨2, ![R, C]⟩ : Shape).Slices ![0, o] ⟨2, ![R, C']⟩) (p : Fin R) (j : Fin C') (hj : o + j.val < C) :
    extractStridedSlice ⟨2, ![R, C']⟩ ![0, o] v h (ix2 p j) = v (ix2 p ⟨o + j.val, hj⟩) :=
  extractStridedSlice_apply ![0, o] v h (ix2 p j) (ix2 p ⟨o + j.val, hj⟩) (fun a => match a with
    | ⟨0, _⟩ => by show p.val = 0 + p.val; omega
    | ⟨1, _⟩ => rfl)

/-- A plain `[M, K] · [K, N]` product into the zero accumulator, read at `(p, c)` at the extended reals: the sum over
    the shared axis. The four hypotheses say which coordinates the product's dimension numbers pair up. -/
theorem matmul_plain_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂) (p : Fin M) (c : Fin N) :
    matmul d prec lhs rhs (constant (F := Ideal) ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- Four terms added left to right are their sum over `Fin 4`. -/
theorem sum4_nest {M : Type*} [AddCommMonoid M] (f : Fin 4 → M) : ((f 0 + f 1) + f 2) + f 3 = ∑ k : Fin 4, f k :=
  (Fin.sum_univ_four f).symm

/-- Four terms added one after another on top of a first one are the first plus their sum over `Fin 4`. -/
theorem acc4_nest {M : Type*} [AddCommMonoid M] (a : M) (f : Fin 4 → M) :
    (((a + f 0) + f 1) + f 2) + f 3 = a + ∑ k : Fin 4, f k := by
  rw [Fin.sum_univ_four, add_assoc, add_assoc, add_assoc, add_assoc, add_assoc]

/-- The f32 word `0x3F800000` is the number one. -/
theorem one_f32 : Ideal.ofBits .f32 0x3F800000#32 = 1 := by
  simp [Ideal.ofBits, Ideal.ieee, -EReal.coe_mul]; norm_num

end Cert.LibTiles

end
-- ==== Proof.TileValue.lean ====
/-
  What the kernel body stores, entry by entry: the layer on one tile of 5000 rows.

  The body loads a tile of node features x0 : [5000, 64], the matching tile of aggregates x1 : [5000, 65] (64 column
  sums, then the edge count), the two transposed weight halves and the bias row.  It divides each sum by
  (count + eps), multiplies the features by the first half and the means by the second (each product accumulated
  from zero; the roundings to bf16 on the way into the products are the identity on the extended reals), adds
  the two products and the bias row, and takes the maximum with zero.  Entry (p, q) of the stored value is
  therefore  Cert.Sage.layer x0 x1 w1 w2 bias p q.
-/
import proofs.«100620_j74491912781907_2_alg».proof.Proof.Gen.KernelIdeal.Skeleton
import proofs.«100620_j74491912781907_2_alg».proof.Proof.SageSpec
import proofs.«100620_j74491912781907_2_alg».proof.Proof.LibDense
import proofs.«100620_j74491912781907_2_alg».proof.Proof.LibTiles
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.TileValue

open Cert.KernelIdeal Cert.KernelIdeal.Gen Idealize.ShloMosaic Idealize.ShloMosaic.ValueIdx
open scoped BigOperators

/-- The mean's entry (p, k): column sum k of row p over (the row's count plus eps). -/
theorem mean_apply (x1 : FVec Ideal S5000x65 .f32) (p : Fin 5000) (k : Fin 64) :
    divf (extractStridedSlice S5000x64 ![0, 0] x1 Facts₀.slices_S5000x65_o0_0_S5000x64)
        (broadcastTo S5000x64
          (addf (extractStridedSlice S5000x1 ![0, 64] x1 Facts₀.slices_S5000x65_o0_64_S5000x1)
            (broadcast S5000x1 (Scalar.ofBits (F := Ideal) .f32 0x3089705F#32)))
          Facts₀.broadcasts_S5000x1_S5000x64) (ix2 p k)
      = Ideal.div (x1 (ix2 p (⟨k.val, by omega⟩ : Fin 65)))
          (x1 (ix2 p (⟨64, by omega⟩ : Fin 65)) + Ideal.ofBits .f32 0x3089705F#32) := by
  rw [divf_apply]
  refine congrArg₂ Ideal.div ?_ ?_
  · refine (Cert.LibTiles.sliceCols_apply 0 x1 Facts₀.slices_S5000x65_o0_0_S5000x64 p k (by have := k.isLt; omega)).trans ?_
    exact congrArg x1 (congrArg (ix2 p) (Fin.ext (by show 0 + k.val = k.val; omega)))
  · refine (Cert.LibDense.spread_col_apply _ Facts₀.broadcasts_S5000x1_S5000x64 p k).trans ?_
    rw [addf_apply, broadcast_apply]
    refine congrArg₂ (· + ·) ?_ rfl
    refine (Cert.LibTiles.sliceCols_apply 64 x1 Facts₀.slices_S5000x65_o0_64_S5000x1 p (0 : Fin 1) (by decide)).trans ?_
    exact congrArg x1 (congrArg (ix2 p) (Fin.ext rfl))

/-- THE STORED VALUE AT (p, q). -/
theorem pay_apply (x0 : FVec Ideal S5000x64 .f32) (x1 : FVec Ideal S5000x65 .f32) (w1 w2 : FVec Ideal S64x64 .f32)
    (bb : FVec Ideal S1x64 .f32) (p : Fin 5000) (q : Fin 64) :
    k0_pay1 (F := Ideal) x0 x1 w1 w2 bb (ix2 p q) = Cert.Sage.layer (R := 5000) x0 x1 w1 w2 bb p q := by
  unfold k0_pay1 Cert.Sage.layer
  rw [maximumf_apply, addf_apply, addf_apply, broadcast_apply, shapeCast_self, shapeCast_self, shapeCast_self, shapeCast_self]
  refine congrArg₂ max (congrArg₂ (· + ·) (congrArg₂ (· + ·) ?_ ?_) ?_) rfl
  · exact Cert.LibDense.matmul_zero_plain Facts₀.dot_S5000x64_S64x64_S5000x64_1_0_0_1_n_n_wf none _ _ p q
  · refine (Cert.LibDense.matmul_zero_plain Facts₀.dot_S5000x64_S64x64_S5000x64_1_0_0_1_n_n_wf none _ _ p q).trans ?_
    refine Finset.sum_congr rfl fun k _ => congrArg₂ (· * ·) ?_ rfl
    rw [truncf_apply]
    exact mean_apply x1 p k
  · exact broadcastTo_1b_ab_apply bb Facts₀.broadcasts_S1x64_S5000x64 p q

/-- The stored value is the tile. -/
theorem pay_eq (x0 : FVec Ideal S5000x64 .f32) (x1 : FVec Ideal S5000x65 .f32) (w1 w2 : FVec Ideal S64x64 .f32)
    (bb : FVec Ideal S1x64 .f32) :
    k0_pay1 (F := Ideal) x0 x1 w1 w2 bb = Cert.Sage.layerArr (R := 5000) x0 x1 w1 w2 bb := by
  funext j
  obtain ⟨p, q, rfl⟩ : ∃ (p : Fin 5000) (q : Fin 64), j = ix2 p q := ⟨j 0, j 1, eq_ix2 j⟩
  exact pay_apply x0 x1 w1 w2 bb p q

end Cert.KernelIdeal.TileValue

end
-- ==== Proof.ArrayValue.lean ====
/-
  From the tiles to the whole output array.

  The grid has 20 points; point t stages rows 5000·t … 5000·t + 4999 of the node features and of the aggregates,
  the whole of the two weight halves and of the bias row, and writes back rows 5000·t … 5000·t + 4999 of the output.
  A row of a tile's output depends on the same row of the tile's inputs only, so what point t writes back is block t
  of the layer computed on the whole arrays; the 20 blocks cover the output array, which therefore ends holding the
  layer of the arrays the region found.
-/
import proofs.«100620_j74491912781907_2_alg».proof.Proof.Gen.KernelIdeal.Value
import proofs.«100620_j74491912781907_2_alg».proof.Proof.TileValue
import proofs.«100620_j74491912781907_2_alg».proof.Proof.SageSpec
import Idealize.ShloMosaic.Lib.Pipeline.Value
import Idealize.ShloMosaic.Lib.ValueIdx

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer on the arrays the region finds. -/
def wholeLayer (c : Dev nD) : S100000x64.Idx → EReal :=
  Cert.Sage.layerArr (R := 100000) (V m c main_arg0) (V m c main_v117) (V m c main_v119) (V m c main_v121) (V m c main_v122)

/-- The index maps over the grid: the row windows and the output move one block per point, the others stay. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the output is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- WHAT POINT t WRITES BACK is block t of the layer on the whole arrays. -/
theorem flushed_eq (c : Dev nD) (t : Fin cfg0.N) :
    (dats m 0 c).flushed 5 t = ((cfg0.win 5).blk t).view.read (Elt Ideal) (wholeLayer m c) := by
  rw [Cert.KernelIdeal.Value.flushed5]
  unfold out0_5
  rw [View.canon_unit_zero zero_offsets]
  simp only [View.ld_unit_zero (S := S5000x64) zero_offsets, View.ld_unit_zero (S := S5000x65) zero_offsets,
    View.ld_unit_zero (S := S64x64) zero_offsets, View.ld_unit_zero (S := S1x64) zero_offsets]
  rw [Cert.KernelIdeal.TileValue.pay_eq]
  obtain ⟨e00, e01, e10, e11, e20, e21, e30, e31, e40, e41, e50, e51⟩ := index_facts t
  funext j
  show Cert.Sage.layer (iblk m c 0 t) (iblk m c 1 t) (iblk m c 2 t) (iblk m c 3 t) (iblk m c 4 t) (j 0) (j 1)
    = Cert.Sage.layer (V m c main_arg0) (V m c main_v117) (V m c main_v119) (V m c main_v121) (V m c main_v122)
        ((((cfg0.win 5).blk t).view.emb j) 0) ((((cfg0.win 5).blk t).view.emb j) 1)
  refine Cert.Sage.layer_congr _ _ _ _ _ _ _ _ _ _ _ _ _ _ ?_ ?_ ?_ ?_ ?_ ?_
  · intro k
    show V m c main_arg0 (((cfg0.win 0).blk t).view.emb (ix2 (j 0) k)) = _
    refine congrArg _ (funext fun a => Fin.ext ?_)
    match a with
    | ⟨0, _⟩ =>
      show win0_0.index t (0 : Fin 2) * 5000 + 1 * (j 0).val = win0_5.index t (0 : Fin 2) * 5000 + 1 * (j 0).val
      omega
    | ⟨1, _⟩ =>
      show win0_0.index t (1 : Fin 2) * 64 + 1 * k.val = k.val
      omega
  · intro k
    show V m c main_v117 (((cfg0.win 1).blk t).view.emb (ix2 (j 0) k)) = _
    refine congrArg _ (funext fun a => Fin.ext ?_)
    match a with
    | ⟨0, _⟩ =>
      show win0_1.index t (0 : Fin 2) * 5000 + 1 * (j 0).val = win0_5.index t (0 : Fin 2) * 5000 + 1 * (j 0).val
      omega
    | ⟨1, _⟩ =>
      show win0_1.index t (1 : Fin 2) * 65 + 1 * k.val = k.val
      omega
  · funext y
    show V m c main_v119 (((cfg0.win 2).blk t).view.emb y) = V m c main_v119 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  · funext y
    show V m c main_v121 (((cfg0.win 3).blk t).view.emb y) = V m c main_v121 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 64 + 1 * (y 1).val = (y 1).val; omega
  · funext y
    show V m c main_v122 (((cfg0.win 4).blk t).view.emb y) = V m c main_v122 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  · refine Fin.ext ?_
    show (j 1).val = win0_5.index t (1 : Fin 2) * 64 + 1 * (j 1).val
    omega

/-- An index of the output is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v123).slice (win0_5.rect t)).set ↔ _
  rw [View.set_slice_whole, Rect.mem_set_unit]
  exact Iff.rfl

/-- The 20 blocks cover the output array: row r is in the block of point r / 5000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- THE OUTPUT ARRAY after the run is the layer on the arrays the region found. -/
theorem final (c : Dev nD) : (dats m 0 c).arrAt 5 cfg0.N = wholeLayer m c :=
  (dats m 0 c).arrAt_eq_of_cover 5 (wholeLayer m c) (fun t _ => flushed_eq m c t) (cover)

/-- The kernel's run: the result array ends at the layer on the arrays the region found, the arguments unchanged. -/
theorem run : θ_run defs (onTc (τ := τ) (main (F := Ideal))) ⟨m, fun _ => 0, ρ⟩ fun r => ∀ c : Dev nD,
      r.2.mem ((c : Thread nD τ).loc main_v123) = wholeLayer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.ArrayValue

end
-- ==== Proof.EdgeSum.lean ====
/-
  A sum over the 1600000 edges taken in eight consecutive chunks of 200000.

  The edges into a node are picked out of all the edges by a condition, so the node's aggregate is a sum over every
  edge of a term that is zero when the condition fails; such a sum splits into the eight chunks' sums, and the
  chunks added one after another onto a zero start, each itself started from zero, give the whole sum back.
  Only commutativity and associativity of addition are used: nothing here asks for finiteness.
-/
import proofs.«100620_j74491912781907_2_alg».proof.Proof.SageSpec

noncomputable section

namespace Cert.Sage

open Idealize.ShloMosaic Idealize.ShloMosaic.ValueIdx
open scoped BigOperators

/-- A sum over a·b cells is the sum, over a consecutive chunks, of each chunk's b cells. -/
theorem sum_grid {M : Type*} [AddCommMonoid M] (a b : ℕ) (f : Fin (a * b) → M) :
    ∑ e, f e = ∑ k : Fin a, ∑ j : Fin b, f (finProdFinEquiv (k, j)) := by
  rw [← Equiv.sum_comp finProdFinEquiv f, Fintype.sum_prod_type]

/-- The edges in eight chunks of 200000. -/
theorem sum_edges8 {M : Type*} [AddCommMonoid M] (f : Fin 1600000 → M) :
    ∑ e, f e = ∑ k : Fin 8, ∑ j : Fin 200000,
      f ⟨200000 * k.val + j.val, by have := k.isLt; have := j.isLt; omega⟩ := by
  have h := sum_grid 8 200000 f
  rw [h]
  refine Finset.sum_congr rfl fun k _ => Finset.sum_congr rfl fun j _ => congrArg f (Fin.ext ?_)
  show j.val + 200000 * k.val = 200000 * k.val + j.val
  omega

/-- Chunk o's part of column c of node n's aggregate: the edges o … o + 199999 that go into n. -/
def aggChunk (x : (⟨2, ![100000, 64]⟩ : Shape).Idx → EReal) (ei : (⟨2, ![2, 1600000]⟩ : Shape).Idx → BitVec 32)
    (o : ℕ) (ho : o + 200000 ≤ 1600000) (n : Fin 100000) (c : Fin 65) : EReal :=
  ∑ j ∈ Finset.univ.filter (fun j : Fin 200000 =>
      (ei (ix2 (0 : Fin 2) (⟨o + j.val, by have := j.isLt; omega⟩ : Fin 1600000))).toInt = (n.val : ℤ)),
    edgeTerm x (ei (ix2 (1 : Fin 2) (⟨o + j.val, by have := j.isLt; omega⟩ : Fin 1600000))) c

/-- The aggregate is the sum of its eight chunks. -/
theorem agg_chunks (x : (⟨2, ![100000, 64]⟩ : Shape).Idx → EReal) (ei : (⟨2, ![2, 1600000]⟩ : Shape).Idx → BitVec 32)
    (n : Fin 100000) (c : Fin 65) :
    agg x ei n c = aggChunk x ei 0 (by omega) n c + aggChunk x ei 200000 (by omega) n c
      + aggChunk x ei 400000 (by omega) n c + aggChunk x ei 600000 (by omega) n c
      + aggChunk x ei 800000 (by omega) n c + aggChunk x ei 1000000 (by omega) n c
      + aggChunk x ei 1200000 (by omega) n c + aggChunk x ei 1400000 (by omega) n c := by
  unfold agg
  rw [Finset.sum_filter, sum_edges8, Fin.sum_univ_eight]
  unfold aggChunk
  simp only [Finset.sum_filter]
  rfl

/-- The chunks accumulated as the program does it — a zero array, then each chunk's segment sum (itself started
    from zero) added on — is the aggregate. -/
theorem agg_nest (x : (⟨2, ![100000, 64]⟩ : Shape).Idx → EReal) (ei : (⟨2, ![2, 1600000]⟩ : Shape).Idx → BitVec 32)
    (n : Fin 100000) (c : Fin 65) (z : EReal) (hz : z = 0) :
    ((((((((z + (z + aggChunk x ei 0 (by omega) n c)) + (z + aggChunk x ei 200000 (by omega) n c))
      + (z + aggChunk x ei 400000 (by omega) n c)) + (z + aggChunk x ei 600000 (by omega) n c))
      + (z + aggChunk x ei 800000 (by omega) n c)) + (z + aggChunk x ei 1000000 (by omega) n c))
      + (z + aggChunk x ei 1200000 (by omega) n c)) + (z + aggChunk x ei 1400000 (by omega) n c))
      = agg x ei n c := by
  subst hz
  simp only [zero_add]
  exact (agg_chunks x ei n c).symm

end Cert.Sage

end
-- ==== Proof.LibScatter.lean ====
/-
  Row gathers and row scatters read at an index.

  `x[idx]` of a matrix `x : [N, C]` at a column of row numbers `idx : [E, 1]` is a `stablehlo.gather` whose result
  row `e` is row `idx[e, 0]` of `x`, the row number read signed and clamped into `[0, N - 1]`.  A segment sum
  `segment_sum(upd, idx, N)` of a matrix `upd : [E, C]` (or of a vector `upd : [E]`) is a `stablehlo.scatter` with an
  `add` body: on the extended reals element `(n, c)` of the result is the operand's element plus the sum of
  `upd[e, c]` over the rows `e` whose row number `idx[e, 0]`, read signed and NOT clamped, is `n`; a row number
  outside `[0, N)` lands nowhere.  These lemmas read the three operations at an index, for every extent.
-/
import Idealize.ShloMosaic.PureOps.Ideal
import Idealize.ShloMosaic.PureOps.Contract
import Idealize.ShloMosaic.Lib.ValueIdx

noncomputable section

open scoped BigOperators

namespace Idealize.ShloMosaic.RowOps

open Idealize.ShloMosaic Idealize.ShloMosaic.ValueIdx

/-! ## The dimension numbers -/

/-- A gather of whole rows: operand `[N, C]`, row numbers `[E, 1]`, result `[E, C]`. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A scatter of whole rows: operand `[N, C]`, row numbers `[E, 1]`, updates `[E, C]`. -/
abbrev rowScatter (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- A scatter of single elements: operand `[N]`, element numbers `[E, 1]`, updates `[E]`. -/
abbrev vecScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-! ## The row gather -/

/-- The row a gather reads for result row `e`: the row number read signed, clamped into `[0, N - 1]`. -/
def clampRow {N E w : Nat} (hN : 0 < N) (idx : IVec ⟨2, ![E, 1]⟩ w) (e : Fin E) : Fin N :=
  ⟨min (idx (ix2 e 0)).toInt.toNat (N - 1), by omega⟩

/-- Axis 1 of a matrix is not axis 0. -/
private theorem fin2_one_ne_zero : ¬ (1 : Fin 2) = 0 := by decide

section RowGather
variable {N E C w : Nat} (wf : GatherDims.WF ⟨2, ![N, C]⟩ ⟨2, ![E, 1]⟩ ⟨2, ![E, C]⟩ [1] [0] [] [0] [] 1 ![1, C])

/-- On the row axis the gather reads the clamped row number. -/
theorem rowGather_row (hN : 0 < N) (idx : IVec ⟨2, ![E, 1]⟩ w) (e : Fin E) (c : Fin C) :
    (rowGather N E C wf).start (ix2 e c) idx 0 + (rowGather N E C wf).batchCoord (ix2 e c) 0
      + (rowGather N E C wf).offCoord (ix2 e c) 0 = (clampRow hN idx e).val := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N E C wf).startIndexMap from List.mem_singleton.mpr rfl)]
  have hsi : (rowGather N E C wf).siIdx (ix2 e c) ⟨List.idxOf (0 : Fin 2) (rowGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis the gather reads the result's own column. -/
theorem rowGather_col (idx : IVec ⟨2, ![E, 1]⟩ w) (e : Fin E) (c : Fin C) :
    (rowGather N E C wf).start (ix2 e c) idx 1 + (rowGather N E C wf).batchCoord (ix2 e c) 1
      + (rowGather N E C wf).offCoord (ix2 e c) 1 = c.val := by
  rw [GatherDims.batchCoord_eq_zero _ _ _ List.not_mem_nil]
  unfold GatherDims.start
  rw [dif_neg (show ¬ (1 : Fin 2) ∈ (rowGather N E C wf).startIndexMap from
    fun h => fin2_one_ne_zero (List.mem_singleton.mp h))]
  unfold GatherDims.offCoord
  rw [dif_pos (show (1 : Fin 2) ∈ (rowGather N E C wf).sKept from
    (GatherDims.mem_sKept _ _).mpr ⟨fun h => fin2_one_ne_zero (List.mem_singleton.mp h), List.not_mem_nil⟩)]
  simp only [Nat.zero_add]
  rfl

/-- THE ROW GATHER READ AT `(e, c)`: the operand at row `clampRow e`, column `c`. -/
theorem rowGather_apply {α : Type} (hN : 0 < N)
    (x : (⟨2, ![N, C]⟩ : Shape).Idx → α) (idx : IVec ⟨2, ![E, 1]⟩ w) (e : Fin E) (c : Fin C) :
    Host.gather (rowGather N E C wf) x idx (ix2 e c) = x (ix2 (clampRow hN idx e) c) := by
  unfold Host.gather
  congr 1
  funext a
  refine Fin.ext ?_
  match a with
  | ⟨0, _⟩ => exact rowGather_row wf hN idx e c
  | ⟨1, _⟩ => exact rowGather_col wf idx e c

end RowGather

/-! ## The row scatter's result index -/

section RowScatter
variable {N E C w : Nat} (wf : ScatterDims.WF ⟨2, ![N, C]⟩ ⟨2, ![E, 1]⟩ ⟨2, ![E, C]⟩ [1] [0] [0] 1)

/-- On the row axis an update starts at its row number, read signed. -/
theorem rowScatter_start0 (j : (⟨2, ![E, C]⟩ : Shape).Idx) (idx : IVec ⟨2, ![E, 1]⟩ w) :
    (rowScatter N E C wf).start j idx 0 = (idx (ix2 (j 0) 0)).toInt := by
  unfold ScatterDims.start
  rw [dif_pos (show (0 : Fin 2) ∈ (rowScatter N E C wf).scatterDimsToOperandDims from List.mem_singleton.mpr rfl)]
  have hsi : (rowScatter N E C wf).siIdx j ⟨List.idxOf (0 : Fin 2) (rowScatter N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

/-- On the column axis an update starts at zero. -/
theorem rowScatter_start1 (j : (⟨2, ![E, C]⟩ : Shape).Idx) (idx : IVec ⟨2, ![E, 1]⟩ w) :
    (rowScatter N E C wf).start j idx 1 = 0 := by
  unfold ScatterDims.start
  rw [dif_neg (show ¬ (1 : Fin 2) ∈ (rowScatter N E C wf).scatterDimsToOperandDims from
    fun h => fin2_one_ne_zero (List.mem_singleton.mp h))]

/-- The row axis is inserted: no window coordinate there. -/
theorem rowScatter_window0 (j : (⟨2, ![E, C]⟩ : Shape).Idx) : (rowScatter N E C wf).window j 0 = 0 := by
  unfold ScatterDims.window
  rw [dif_neg (show ¬ (0 : Fin 2) ∈ (rowScatter N E C wf).sKept from
    fun h => absurd (List.mem_singleton.mpr rfl) (of_decide_eq_true (List.mem_filter.mp h).2))]

/-- On the column axis the window coordinate is the update's column. -/
theorem rowScatter_window1 (j : (⟨2, ![E, C]⟩ : Shape).Idx) : (rowScatter N E C wf).window j 1 = (j 1).val := by
  unfold ScatterDims.window
  rw [dif_pos (show (1 : Fin 2) ∈ (rowScatter N E C wf).sKept from
    List.mem_filter.mpr ⟨List.mem_finRange _, decide_eq_true (fun h => fin2_one_ne_zero (List.mem_singleton.mp h))⟩)]
  rfl

/-- Update `(e, c)` lands on element `(n, c')` exactly when its row number, read signed, is `n` and `c = c'`. -/
theorem rowScatter_resultIdx (j : (⟨2, ![E, C]⟩ : Shape).Idx) (idx : IVec ⟨2, ![E, 1]⟩ w)
    (i : (⟨2, ![N, C]⟩ : Shape).Idx) :
    (rowScatter N E C wf).resultIdx? j idx = some i ↔ (idx (ix2 (j 0) 0)).toInt = ((i 0).val : Int) ∧ j 1 = i 1 := by
  have hi0 := idx2_lt0 i
  have hi1 := idx2_lt1 i
  have hj1 := idx2_lt1 j
  constructor
  · intro hres
    unfold ScatterDims.resultIdx? at hres
    split at hres
    · rename_i h
      have hi := Option.some.inj hres
      have e0 : ((rowScatter N E C wf).start j idx 0 + (rowScatter N E C wf).window j 0).toNat = (i 0).val :=
        congrArg (fun f : (⟨2, ![N, C]⟩ : Shape).Idx => (f 0).val) hi
      have e1 : ((rowScatter N E C wf).start j idx 1 + (rowScatter N E C wf).window j 1).toNat = (i 1).val :=
        congrArg (fun f : (⟨2, ![N, C]⟩ : Shape).Idx => (f 1).val) hi
      have h0 := (h 0).1
      rw [rowScatter_start0, rowScatter_window0] at e0 h0
      rw [rowScatter_start1, rowScatter_window1] at e1
      refine ⟨by omega, Fin.ext (by omega)⟩
    · exact absurd hres (by simp)
  · rintro ⟨hs, hc⟩
    have hc' : (j 1).val = (i 1).val := congrArg Fin.val hc
    have H : ∀ a, 0 ≤ (rowScatter N E C wf).start j idx a + (rowScatter N E C wf).window j a ∧
        (rowScatter N E C wf).start j idx a + (rowScatter N E C wf).window j a < ((⟨2, ![N, C]⟩ : Shape).size a : Int) := by
      intro a
      match a with
      | ⟨0, _⟩ =>
        show 0 ≤ (rowScatter N E C wf).start j idx 0 + (rowScatter N E C wf).window j 0 ∧
          (rowScatter N E C wf).start j idx 0 + (rowScatter N E C wf).window j 0 < (N : Int)
        rw [rowScatter_start0, rowScatter_window0]; omega
      | ⟨1, _⟩ =>
        show 0 ≤ (rowScatter N E C wf).start j idx 1 + (rowScatter N E C wf).window j 1 ∧
          (rowScatter N E C wf).start j idx 1 + (rowScatter N E C wf).window j 1 < (C : Int)
        rw [rowScatter_start1, rowScatter_window1]; omega
    unfold ScatterDims.resultIdx?
    rw [dif_pos H]
    congr 1
    funext a
    refine Fin.ext ?_
    match a with
    | ⟨0, _⟩ =>
      show ((rowScatter N E C wf).start j idx 0 + (rowScatter N E C wf).window j 0).toNat = (i 0).val
      rw [rowScatter_start0, rowScatter_window0]; omega
    | ⟨1, _⟩ =>
      show ((rowScatter N E C wf).start j idx 1 + (rowScatter N E C wf).window j 1).toNat = (i 1).val
      rw [rowScatter_start1, rowScatter_window1]; omega

/-- THE ROW SEGMENT SUM READ AT `(n, c)`: the operand's element plus the sum of column `c` of the update rows
    whose row number is `n`. -/
theorem rowScatterAdd_apply (x : (⟨2, ![N, C]⟩ : Shape).Idx → EReal) (idx : IVec ⟨2, ![E, 1]⟩ w)
    (upd : (⟨2, ![E, C]⟩ : Shape).Idx → EReal) (n : Fin N) (c : Fin C) :
    Ideal.hostScatterAdd (rowScatter N E C wf) x idx upd (ix2 n c)
      = x (ix2 n c) + ∑ e ∈ Finset.univ.filter (fun e : Fin E => (idx (ix2 e 0)).toInt = (n.val : Int)), upd (ix2 e c) := by
  unfold Ideal.hostScatterAdd
  congr 1
  rw [Finset.sum_filter, sum_idx2, Finset.sum_filter]
  refine Finset.sum_congr rfl fun e _ => ?_
  by_cases he : (idx (ix2 e 0)).toInt = (n.val : Int)
  · rw [if_pos he, Finset.sum_eq_single c]
    · rw [if_pos ((rowScatter_resultIdx wf (ix2 e c) idx (ix2 n c)).mpr ⟨he, rfl⟩)]
    · intro b _ hb
      rw [if_neg]
      intro h
      exact hb ((rowScatter_resultIdx wf (ix2 e b) idx (ix2 n c)).mp h).2
    · intro h
      exact absurd (Finset.mem_univ c) h
  · rw [if_neg he]
    refine Finset.sum_eq_zero fun b _ => ?_
    rw [if_neg]
    intro h
    exact he ((rowScatter_resultIdx wf (ix2 e b) idx (ix2 n c)).mp h).1

/-- The host's accumulating row scatter at the extended reals is that segment sum. -/
theorem host_rowScatterAdd_apply (x : FVec Ideal (⟨2, ![N, C]⟩ : Shape) .f32) (idx : IVec ⟨2, ![E, 1]⟩ w)
    (upd : FVec Ideal (⟨2, ![E, C]⟩ : Shape) .f32) (n : Fin N) (c : Fin C) :
    Host.scatterAdd (rowScatter N E C wf) x idx upd (ix2 n c)
      = x (ix2 n c) + ∑ e ∈ Finset.univ.filter (fun e : Fin E => (idx (ix2 e 0)).toInt = (n.val : Int)), upd (ix2 e c) :=
  rowScatterAdd_apply wf x idx upd n c

end RowScatter

/-! ## The element scatter -/

section VecScatter
variable {N E w : Nat} (wf : ScatterDims.WF ⟨1, ![N]⟩ ⟨2, ![E, 1]⟩ ⟨1, ![E]⟩ [] [0] [0] 1)

/-- An update starts at its element number, read signed. -/
theorem vecScatter_start0 (j : (⟨1, ![E]⟩ : Shape).Idx) (idx : IVec ⟨2, ![E, 1]⟩ w) :
    (vecScatter N E wf).start j idx 0 = (idx (ix2 (j 0) 0)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  exact congrArg (fun z => (idx z).toInt) hsi

/-- The one axis is inserted: no window coordinate. -/
theorem vecScatter_window0 (j : (⟨1, ![E]⟩ : Shape).Idx) : (vecScatter N E wf).window j 0 = 0 := by
  unfold ScatterDims.window
  rw [dif_neg (show ¬ (0 : Fin 1) ∈ (vecScatter N E wf).sKept from
    fun h => absurd (List.mem_singleton.mpr rfl) (of_decide_eq_true (List.mem_filter.mp h).2))]

/-- Update `e` lands on element `n` exactly when its element number, read signed, is `n`. -/
theorem vecScatter_resultIdx (j : (⟨1, ![E]⟩ : Shape).Idx) (idx : IVec ⟨2, ![E, 1]⟩ w)
    (i : (⟨1, ![N]⟩ : Shape).Idx) :
    (vecScatter N E wf).resultIdx? j idx = some i ↔ (idx (ix2 (j 0) 0)).toInt = ((i 0).val : Int) := by
  have hi0 : (i 0).val < N := (i 0).isLt
  constructor
  · intro hres
    unfold ScatterDims.resultIdx? at hres
    split at hres
    · rename_i h
      have hi := Option.some.inj hres
      have e0 : ((vecScatter N E wf).start j idx 0 + (vecScatter N E wf).window j 0).toNat = (i 0).val :=
        congrArg (fun f : (⟨1, ![N]⟩ : Shape).Idx => (f 0).val) hi
      have h0 := (h 0).1
      rw [vecScatter_start0, vecScatter_window0] at e0 h0
      omega
    · exact absurd hres (by simp)
  · intro hs
    have H : ∀ a, 0 ≤ (vecScatter N E wf).start j idx a + (vecScatter N E wf).window j a ∧
        (vecScatter N E wf).start j idx a + (vecScatter N E wf).window j a < ((⟨1, ![N]⟩ : Shape).size a : Int) := by
      intro a
      match a with
      | ⟨0, _⟩ =>
        show 0 ≤ (vecScatter N E wf).start j idx 0 + (vecScatter N E wf).window j 0 ∧
          (vecScatter N E wf).start j idx 0 + (vecScatter N E wf).window j 0 < (N : Int)
        rw [vecScatter_start0, vecScatter_window0]; omega
    unfold ScatterDims.resultIdx?
    rw [dif_pos H]
    congr 1
    funext a
    refine Fin.ext ?_
    match a with
    | ⟨0, _⟩ =>
      show ((vecScatter N E wf).start j idx 0 + (vecScatter N E wf).window j 0).toNat = (i 0).val
      rw [vecScatter_start0, vecScatter_window0]; omega

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

/-- THE ELEMENT SEGMENT SUM READ AT `n`: the operand's element plus the sum of the updates whose element number
    is `n`. -/
theorem vecScatterAdd_apply (x : (⟨1, ![N]⟩ : Shape).Idx → EReal) (idx : IVec ⟨2, ![E, 1]⟩ w)
    (upd : (⟨1, ![E]⟩ : Shape).Idx → EReal) (n : Fin N) :
    Ideal.hostScatterAdd (vecScatter N E wf) x idx upd (ix1 n)
      = x (ix1 n) + ∑ e ∈ Finset.univ.filter (fun e : Fin E => (idx (ix2 e 0)).toInt = (n.val : Int)), upd (ix1 e) := by
  unfold Ideal.hostScatterAdd
  congr 1
  rw [Finset.sum_filter, sum_idx1, Finset.sum_filter]
  refine Finset.sum_congr rfl fun e _ => ?_
  refine if_congr ?_ rfl rfl
  rw [vecScatter_resultIdx]
  rfl

/-- The host's accumulating element scatter at the extended reals is that segment sum. -/
theorem host_vecScatterAdd_apply (x : FVec Ideal (⟨1, ![N]⟩ : Shape) .f32) (idx : IVec ⟨2, ![E, 1]⟩ w)
    (upd : FVec Ideal (⟨1, ![E]⟩ : Shape) .f32) (n : Fin N) :
    Host.scatterAdd (vecScatter N E wf) x idx upd (ix1 n)
      = x (ix1 n) + ∑ e ∈ Finset.univ.filter (fun e : Fin E => (idx (ix2 e 0)).toInt = (n.val : Int)), upd (ix1 e) :=
  vecScatterAdd_apply wf x idx upd n

end VecScatter

end Idealize.ShloMosaic.RowOps

end
-- ==== Proof.EdgeChunk.lean ====
/-
  One chunk of 200000 edges, as the host computes it, read at an index.

  From the vectors of destination words rv and source words cv (one entry per edge) the program cuts the chunk's
  200000 entries at offset o, normalises the source words, gathers those rows of x, appends a column of ones,
  and adds each augmented row into a zero array [100000, 65] at its destination row.  Entry (n, c) of the result is
  zero plus the sum, over the chunk's edges whose destination word read signed is n, of the edge's term.
-/
import proofs.«100620_j74491912781907_2_alg».proof.Proof.SageSpec
import proofs.«100620_j74491912781907_2_alg».proof.Proof.EdgeSum
import proofs.«100620_j74491912781907_2_alg».proof.Proof.LibScatter
import proofs.«100620_j74491912781907_2_alg».proof.Proof.LibDense
import Idealize.ShloMosaic.Lib.Pipeline.Value
import Idealize.ShloMosaic.Lib.ValueIdx
import Idealize.ShloMosaic.PureOps.Contract

noncomputable section

namespace Cert.Sage

open Idealize.ShloMosaic Idealize.ShloMosaic.ValueIdx Idealize.ShloMosaic.RowOps
open scoped BigOperators

variable {α : Type}

/-- A vector of length 200000 cut out of one of length 1600000 at offset o reads, at j, the long one at o + j. -/
theorem cut_apply (o : ℕ) (v : (⟨1, ![1600000]⟩ : Shape).Idx → α)
    (hs : (⟨1, ![1600000]⟩ : Shape).Slices ![o] ⟨1, ![200000]⟩) (j : Fin 200000) (hj : o + j.val < 1600000) :
    extractStridedSlice ⟨1, ![200000]⟩ ![o] v hs (ix1 j) = v (ix1 (⟨o + j.val, hj⟩ : Fin 1600000)) :=
  extractStridedSlice_apply ![o] v hs (ix1 j) (ix1 (⟨o + j.val, hj⟩ : Fin 1600000)) (fun a => match a with
    | ⟨0, _⟩ => rfl)

/-- A vector [E] laid out as a column [E, 1] reads, at (e, 0), its entry e. -/
theorem col_apply {E : ℕ} (hE : E ≠ 1) (v : (⟨1, ![E]⟩ : Shape).Idx → α)
    (hb : (⟨1, ![E]⟩ : Shape).BroadcastsInDim ⟨2, ![E, 1]⟩ (![0] : Fin 1 → Fin 2)) (e : Fin E) (u : Fin 1) :
    broadcastInDim ⟨2, ![E, 1]⟩ ![0] hb v (ix2 e u) = v (ix1 e) :=
  broadcastInDim_apply _ hb v (ix2 e u) (ix1 e) (fun a => match a with
    | ⟨0, _⟩ => by show e.val = if E = 1 then 0 else e.val; rw [if_neg hE])

/-- A scalar spread over any shape reads the scalar everywhere. -/
theorem splat_apply {t : Shape} (v : (⟨0, ![]⟩ : Shape).Idx → α)
    (hb : (⟨0, ![]⟩ : Shape).BroadcastsInDim t (![] : Fin 0 → Fin t.rank)) (i : t.Idx) :
    broadcastInDim t ![] hb v i = v ix0 :=
  broadcastInDim_apply _ hb v i ix0 (fun a => a.elim0)

section Chunk
variable (o : ℕ) (ho : o + 200000 ≤ 1600000)
  (x : FVec Ideal (⟨2, ![100000, 64]⟩ : Shape) .f32) (rv cv : IVec (⟨1, ![1600000]⟩ : Shape) 32)
  (hs : (⟨1, ![1600000]⟩ : Shape).Slices ![o] ⟨1, ![200000]⟩)
  (hb1 : (⟨1, ![200000]⟩ : Shape).BroadcastsInDim ⟨2, ![200000, 1]⟩ (![0] : Fin 1 → Fin 2))
  (hbs : (⟨0, ![]⟩ : Shape).BroadcastsInDim ⟨1, ![200000]⟩ (![] : Fin 0 → Fin 1))
  (hbz : (⟨0, ![]⟩ : Shape).BroadcastsInDim ⟨2, ![100000, 65]⟩ (![] : Fin 0 → Fin 2))
  (hbo : (⟨0, ![]⟩ : Shape).BroadcastsInDim ⟨2, ![200000, 1]⟩ (![] : Fin 0 → Fin 2))
  (hcat : Shape.Concatenates [(⟨2, ![200000, 64]⟩ : Shape), ⟨2, ![200000, 1]⟩] ⟨2, ![200000, 65]⟩ 1)
  (wfG : GatherDims.WF ⟨2, ![100000, 64]⟩ ⟨2, ![200000, 1]⟩ ⟨2, ![200000, 64]⟩ [1] [0] [] [0] [] 1 ![1, 64])
  (wfS : ScatterDims.WF ⟨2, ![100000, 65]⟩ ⟨2, ![200000, 1]⟩ ⟨2, ![200000, 65]⟩ [1] [0] [0] 1)

/-- The chunk's source rows: the cut source words normalised, as a column. -/
def chunkSrcCol : IVec (⟨2, ![200000, 1]⟩ : Shape) 32 :=
  broadcastInDim ⟨2, ![200000, 1]⟩ ![0] hb1
    (select (cmpi .slt (extractStridedSlice ⟨1, ![200000]⟩ ![o] cv hs)
        (broadcastInDim ⟨1, ![200000]⟩ ![] hbs (constantI ⟨0, ![]⟩ 32 0#32)))
      (addi (extractStridedSlice ⟨1, ![200000]⟩ ![o] cv hs)
        (broadcastInDim ⟨1, ![200000]⟩ ![] hbs (constantI ⟨0, ![]⟩ 32 100000#32)))
      (extractStridedSlice ⟨1, ![200000]⟩ ![o] cv hs))

/-- The chunk's augmented messages [200000, 65]: the gathered rows, then a column of ones. -/
def chunkAug : FVec Ideal (⟨2, ![200000, 65]⟩ : Shape) .f32 :=
  concatenate ⟨2, ![200000, 65]⟩ 1
    [⟨⟨2, ![200000, 64]⟩, Host.gather (rowGather 100000 200000 64 wfG) x (chunkSrcCol o cv hs hb1 hbs)⟩,
     ⟨⟨2, ![200000, 1]⟩, broadcastInDim ⟨2, ![200000, 1]⟩ ![] hbo (constant (F := Ideal) ⟨0, ![]⟩ .f32 0x3F800000#32)⟩] hcat

/-- The chunk's segment sum into a zero array. -/
def chunkSum : FVec Ideal (⟨2, ![100000, 65]⟩ : Shape) .f32 :=
  Host.scatterAdd (F := Ideal) (rowScatter 100000 200000 65 wfS)
    (broadcastInDim ⟨2, ![100000, 65]⟩ ![] hbz (constant (F := Ideal) ⟨0, ![]⟩ .f32 0x00000000#32))
    (broadcastInDim ⟨2, ![200000, 1]⟩ ![0] hb1 (extractStridedSlice ⟨1, ![200000]⟩ ![o] rv hs))
    (chunkAug o x cv hs hb1 hbs hbo hcat wfG)

include ho in
/-- The chunk's source column at edge j: the normalised source word of edge o + j. -/
theorem chunkSrcCol_apply (j : Fin 200000) :
    chunkSrcCol o cv hs hb1 hbs (ix2 j (0 : Fin 1))
      = normCol (cv (ix1 (⟨o + j.val, by have := j.isLt; omega⟩ : Fin 1600000))) := by
  unfold chunkSrcCol
  rw [col_apply (by decide) _ hb1 j 0]
  show Scalar.select (IntOp.cmpi .slt _ _) (IntOp.addi _ _) _ = _
  rw [cut_apply o cv hs j (by have := j.isLt; omega), splat_apply, splat_apply]
  rfl

include ho in
/-- The augmented message of edge j, column c: the edge's term. -/
theorem chunkAug_apply (j : Fin 200000) (c : Fin 65) :
    chunkAug o x cv hs hb1 hbs hbo hcat wfG (ix2 j c)
      = edgeTerm x (cv (ix1 (⟨o + j.val, by have := j.isLt; omega⟩ : Fin 1600000))) c := by
  unfold chunkAug edgeTerm
  rw [Cert.LibDense.concat_cols_apply (by norm_num) _ _ hcat j c]
  by_cases hc : c.val < 64
  · rw [dif_pos hc, dif_pos hc, rowGather_apply wfG (by norm_num) x _ j ⟨c.val, hc⟩]
    refine congrArg x (congrArg (fun r => ix2 r (⟨c.val, hc⟩ : Fin 64)) (Fin.ext ?_))
    show min (chunkSrcCol o cv hs hb1 hbs (ix2 j (0 : Fin 1))).toInt.toNat (100000 - 1) = _
    rw [chunkSrcCol_apply o ho cv hs hb1 hbs j]
    rfl
  · rw [dif_neg hc, dif_neg hc, splat_apply]
    rfl

include ho in
/-- THE CHUNK READ AT (n, c): zero plus the chunk's part of the aggregate, for destination and source words
    rv e = ei(0, e), cv e = ei(1, e). -/
theorem chunkSum_apply (ei : (⟨2, ![2, 1600000]⟩ : Shape).Idx → BitVec 32)
    (hrv : ∀ e : Fin 1600000, rv (ix1 e) = ei (ix2 (0 : Fin 2) e))
    (hcv : ∀ e : Fin 1600000, cv (ix1 e) = ei (ix2 (1 : Fin 2) e)) (n : Fin 100000) (c : Fin 65) :
    chunkSum o x rv cv hs hb1 hbs hbz hbo hcat wfG wfS (ix2 n c)
      = Ideal.ofBits .f32 0x00000000#32 + aggChunk x ei o ho n c := by
  unfold chunkSum aggChunk
  rw [host_rowScatterAdd_apply wfS _ _ _ n c, splat_apply]
  refine congrArg₂ (· + ·) rfl ?_
  refine Finset.sum_congr ?_ fun j _ => ?_
  · refine Finset.filter_congr fun j _ => ?_
    rw [col_apply (by decide) _ hb1 j 0, cut_apply o rv hs j (by have := j.isLt; omega), hrv]
  · rw [chunkAug_apply o ho x cv hs hb1 hbs hbo hcat wfG j c, hcv]

end Chunk

end Cert.Sage

end
-- ==== Proof.LibCatPair.lean ====
/-
  A two-operand concatenation as a plain function of its two operands.

  The join of two arrays along an axis is defined over a list of (shape, array) pairs; spelt as a function of the two
  arrays it can be rewritten under like any other operation (a rewriting pass does not descend into the dependent pairs
  of the list, so a line of host operations that joins two computed arrays is otherwise left half-evaluated). The two
  spellings are the same function by definition.
-/
import Idealize.ShloMosaic.PureOps.ShapeOps

noncomputable section

namespace Cert.LibCatPair

open Idealize.ShloMosaic

variable {α : Type}

/-- Two arrays joined along axis `a` of the result, as a function of the two arrays. -/
def pair {t s₁ s₂ : Shape} (a : Fin t.rank) (h : Shape.Concatenates [s₁, s₂] t a) (x₁ : s₁.Idx → α) (x₂ : s₂.Idx → α) :
    t.Idx → α :=
  concatenate t a [⟨s₁, x₁⟩, ⟨s₂, x₂⟩] h

/-- The list spelling is the function spelling. -/
theorem pair_def {t s₁ s₂ : Shape} (a : Fin t.rank) (h : Shape.Concatenates [s₁, s₂] t a) (x₁ : s₁.Idx → α)
    (x₂ : s₂.Idx → α) : concatenate t a [⟨s₁, x₁⟩, ⟨s₂, x₂⟩] h = pair a h x₁ x₂ := rfl

end Cert.LibCatPair

end
-- ==== Proof.HostValue.lean ====
/-
  What the host operations before the region leave in the arrays the kernel's windows read.

  The second window reads the aggregates: a zero array [100000, 65] onto which eight chunks' segment sums are added
  one after another; entry (n, c) is column c of node n's aggregate.  The third and fourth windows read the two
  halves of the weights, each cut out of W : [64, 128] and transposed; the fifth reads the bias as a row.
-/
import proofs.«100620_j74491912781907_2_alg».proof.Proof.Gen.KernelIdeal.Frame
import proofs.«100620_j74491912781907_2_alg».proof.Proof.SageSpec
import proofs.«100620_j74491912781907_2_alg».proof.Proof.EdgeSum
import proofs.«100620_j74491912781907_2_alg».proof.Proof.EdgeChunk
import proofs.«100620_j74491912781907_2_alg».proof.Proof.LibCatPair
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx
open scoped BigOperators

/-- The destination words, one per edge: row 0 of the edge array. -/
def rvOf (ei : IVec S2x1600000 32) : IVec S1600000 32 :=
  shapeCast S1600000 (extractStridedSlice S1x1600000 ![0, 0] ei Facts₀.slices_S2x1600000_S1x1600000_0_0)
    Facts₀.shapeCasts_S1x1600000_S1600000

/-- The source words, one per edge: row 1 of the edge array. -/
def cvOf (ei : IVec S2x1600000 32) : IVec S1600000 32 :=
  shapeCast S1600000 (extractStridedSlice S1x1600000 ![1, 0] ei Facts₀.slices_S2x1600000_S1x1600000_1_0)
    Facts₀.shapeCasts_S1x1600000_S1600000

theorem rvOf_apply (ei : IVec S2x1600000 32) (e : Fin 1600000) : rvOf ei (ix1 e) = ei (ix2 (0 : Fin 2) e) := by
  unfold rvOf
  refine (shapeCast_apply _ Facts₀.shapeCasts_S1x1600000_S1600000 (ix1 e) (ix2 (0 : Fin 1) e) (by
    rewrite [Shape.rowMajor_val_two, Shape.rowMajor_val_one]
    show 0 * 1600000 + e.val = e.val
    omega)).trans ?_
  exact extractStridedSlice_apply ![0, 0] ei Facts₀.slices_S2x1600000_S1x1600000_0_0 (ix2 (0 : Fin 1) e) (ix2 (0 : Fin 2) e)
    (fun a => match a with
      | ⟨0, _⟩ => rfl
      | ⟨1, _⟩ => by show e.val = 0 + e.val; omega)

theorem cvOf_apply (ei : IVec S2x1600000 32) (e : Fin 1600000) : cvOf ei (ix1 e) = ei (ix2 (1 : Fin 2) e) := by
  unfold cvOf
  refine (shapeCast_apply _ Facts₀.shapeCasts_S1x1600000_S1600000 (ix1 e) (ix2 (0 : Fin 1) e) (by
    rewrite [Shape.rowMajor_val_two, Shape.rowMajor_val_one]
    show 0 * 1600000 + e.val = e.val
    omega)).trans ?_
  exact extractStridedSlice_apply ![1, 0] ei Facts₀.slices_S2x1600000_S1x1600000_1_0 (ix2 (0 : Fin 1) e) (ix2 (1 : Fin 2) e)
    (fun a => match a with
      | ⟨0, _⟩ => rfl
      | ⟨1, _⟩ => by show e.val = 0 + e.val; omega)

/-- One chunk's segment sum, at the program's own side conditions. -/
def chunkP (o : ℕ) (hs : S1600000.Slices ![o] S200000) (x : FVec Ideal S100000x64 .f32) (ei : IVec S2x1600000 32) :
    FVec Ideal S100000x65 .f32 :=
  Cert.Sage.chunkSum o x (rvOf ei) (cvOf ei) hs Facts₀.bcast_S200000_S200000x1_0 Facts₀.bcast_S_S200000
    Facts₀.bcast_S_S100000x65 Facts₀.bcast_S_S200000x1 Facts₀.concatenates_S200000x64_S200000x1_S200000x65_d1
    Facts₀.gather_S100000x64_S200000x1_S200000x64_1_0_n_n_0_1_164_wf Facts₀.scatter_S100000x65_S200000x1_S200000x65_1_0_0_1_wf

theorem chunkP_apply (o : ℕ) (ho : o + 200000 ≤ 1600000) (hs : S1600000.Slices ![o] S200000)
    (x : FVec Ideal S100000x64 .f32) (ei : IVec S2x1600000 32) (n : Fin 100000) (k : Fin 65) :
    chunkP o hs x ei (ix2 n k) = Ideal.ofBits .f32 0x00000000#32 + Cert.Sage.aggChunk x ei o ho n k :=
  Cert.Sage.chunkSum_apply o ho x (rvOf ei) (cvOf ei) hs _ _ _ _ _ _ _ ei (rvOf_apply ei) (cvOf_apply ei) n k

/-- The zero array the accumulation starts from. -/
def zeroAcc : FVec Ideal S100000x65 .f32 :=
  broadcastInDim S100000x65 ![] Facts₀.bcast_S_S100000x65 (constant (F := Ideal) S_ .f32 0x00000000#32)

/-- The aggregates as the host computes them: the eight chunks added one after another onto zero. -/
def aggProg (x : FVec Ideal S100000x64 .f32) (ei : IVec S2x1600000 32) : FVec Ideal S100000x65 .f32 :=
  addf (addf (addf (addf (addf (addf (addf (addf zeroAcc
    (chunkP 0 Facts₀.slices_S1600000_S200000_0 x ei))
    (chunkP 200000 Facts₀.slices_S1600000_S200000_200000 x ei))
    (chunkP 400000 Facts₀.slices_S1600000_S200000_400000 x ei))
    (chunkP 600000 Facts₀.slices_S1600000_S200000_600000 x ei))
    (chunkP 800000 Facts₀.slices_S1600000_S200000_800000 x ei))
    (chunkP 1000000 Facts₀.slices_S1600000_S200000_1000000 x ei))
    (chunkP 1200000 Facts₀.slices_S1600000_S200000_1200000 x ei))
    (chunkP 1400000 Facts₀.slices_S1600000_S200000_1400000 x ei)

/-- Entry (n, k) of the host's aggregates is column k of node n's aggregate. -/
theorem aggProg_apply (x : FVec Ideal S100000x64 .f32) (ei : IVec S2x1600000 32) (n : Fin 100000) (k : Fin 65) :
    aggProg x ei (ix2 n k) = Cert.Sage.agg x ei n k := by
  unfold aggProg
  rw [addf_apply, addf_apply, addf_apply, addf_apply, addf_apply, addf_apply, addf_apply, addf_apply]
  rw [chunkP_apply 0 (by omega), chunkP_apply 200000 (by omega), chunkP_apply 400000 (by omega),
    chunkP_apply 600000 (by omega), chunkP_apply 800000 (by omega), chunkP_apply 1000000 (by omega),
    chunkP_apply 1200000 (by omega), chunkP_apply 1400000 (by omega)]
  have hz : zeroAcc (ix2 n k) = Ideal.ofBits .f32 0x00000000#32 := by
    unfold zeroAcc
    exact Cert.Sage.splat_apply _ Facts₀.bcast_S_S100000x65 (ix2 n k)
  rw [hz]
  exact Cert.Sage.agg_nest x ei n k _ Ideal.ofBits_zero_f32

variable (m : (ℓ : Loc nD τ sig) → Buf (Elt Ideal) ℓ)

set_option maxHeartbeats 8000000 in
/-- THE AGGREGATES WINDOW: what the region finds in the second window's array. -/
theorem V_agg_prog (c : Dev nD) :
    (V m c main_v117 : S100000x65.Idx → EReal)
      = aggProg (m ((c : Thread nD τ).loc main_arg0)) (m ((c : Thread nD τ).loc main_arg1)) := by
  dsimp only [V, hostOps0]
  after_results_simp
  simp only [Cert.LibCatPair.pair_def]
  after_results_simp
  rfl

theorem V_agg (c : Dev nD) :
    (V m c main_v117 : S100000x65.Idx → EReal)
      = Cert.Sage.aggArr (m ((c : Thread nD τ).loc main_arg0)) (m ((c : Thread nD τ).loc main_arg1)) := by
  rw [V_agg_prog]
  funext i
  obtain ⟨n, k, rfl⟩ : ∃ (n : Fin 100000) (k : Fin 65), i = ix2 n k := ⟨i 0, i 1, eq_ix2 i⟩
  exact aggProg_apply _ _ n k

/-- THE FIRST WEIGHTS WINDOW: the left half of W, transposed. -/
theorem V_w1 (c : Dev nD) :
    (V m c main_v119 : S64x64.Idx → EReal) = Cert.Sage.W1t (m ((c : Thread nD τ).loc main_arg2)) := by
  have e : (V m c main_v119 : S64x64.Idx → EReal)
      = transpose S64x64 [1, 0] (extractStridedSlice S64x64 ![0, 0] (m ((c : Thread nD τ).loc main_arg2))
          Facts₀.slices_S64x128_S64x64_0_0) Facts₀.transposes_S64x64_S64x64_1_0 := by
    dsimp only [V, hostOps0]
    after_results_simp
  rw [e]
  funext i
  obtain ⟨k, o, rfl⟩ : ∃ (k : Fin 64) (o : Fin 64), i = ix2 k o := ⟨i 0, i 1, eq_ix2 i⟩
  refine (transpose_apply [1, 0] _ Facts₀.transposes_S64x64_S64x64_1_0 (ix2 k o) (ix2 o k) (fun b => match b with
    | ⟨0, _⟩ => rfl
    | ⟨1, _⟩ => rfl)).trans ?_
  exact extractStridedSlice_apply ![0, 0] _ Facts₀.slices_S64x128_S64x64_0_0 (ix2 o k)
    (ix2 o (⟨k.val, by have := k.isLt; omega⟩ : Fin 128)) (fun a => match a with
      | ⟨0, _⟩ => by show o.val = 0 + o.val; omega
      | ⟨1, _⟩ => by show k.val = 0 + k.val; omega)

/-- THE SECOND WEIGHTS WINDOW: the right half of W, transposed. -/
theorem V_w2 (c : Dev nD) :
    (V m c main_v121 : S64x64.Idx → EReal) = Cert.Sage.W2t (m ((c : Thread nD τ).loc main_arg2)) := by
  have e : (V m c main_v121 : S64x64.Idx → EReal)
      = transpose S64x64 [1, 0] (extractStridedSlice S64x64 ![0, 64] (m ((c : Thread nD τ).loc main_arg2))
          Facts₀.slices_S64x128_S64x64_0_64) Facts₀.transposes_S64x64_S64x64_1_0 := by
    dsimp only [V, hostOps0]
    after_results_simp
  rw [e]
  funext i
  obtain ⟨k, o, rfl⟩ : ∃ (k : Fin 64) (o : Fin 64), i = ix2 k o := ⟨i 0, i 1, eq_ix2 i⟩
  refine (transpose_apply [1, 0] _ Facts₀.transposes_S64x64_S64x64_1_0 (ix2 k o) (ix2 o k) (fun b => match b with
    | ⟨0, _⟩ => rfl
    | ⟨1, _⟩ => rfl)).trans ?_
  exact extractStridedSlice_apply ![0, 64] _ Facts₀.slices_S64x128_S64x64_0_64 (ix2 o k)
    (ix2 o (⟨64 + k.val, by have := k.isLt; omega⟩ : Fin 128)) (fun a => match a with
      | ⟨0, _⟩ => by show o.val = 0 + o.val; omega
      | ⟨1, _⟩ => rfl)

/-- THE BIAS WINDOW: the bias as a row. -/
theorem V_b (c : Dev nD) :
    (V m c main_v122 : S1x64.Idx → EReal) = Cert.Sage.brow (m ((c : Thread nD τ).loc main_arg3)) := by
  have e : (V m c main_v122 : S1x64.Idx → EReal)
      = shapeCast S1x64 (m ((c : Thread nD τ).loc main_arg3)) Facts₀.shapeCasts_S64_S1x64 := by
    dsimp only [V, hostOps0]
    after_results_simp
    rfl
  rw [e]
  funext i
  obtain ⟨u, q, rfl⟩ : ∃ (u : Fin 1) (q : Fin 64), i = ix2 u q := ⟨i 0, i 1, eq_ix2 i⟩
  refine shapeCast_apply _ Facts₀.shapeCasts_S64_S1x64 (ix2 u q) (ix1 q) (by
    rewrite [Shape.rowMajor_val_two, Shape.rowMajor_val_one]
    have hu : u.val = 0 := by omega
    show q.val = u.val * 64 + q.val
    omega)

end Cert.KernelIdeal.HostValue

end
-- ==== Proof.KernelValue.lean ====
/-
  The kernel's result is the layer of the argument arrays.

  The output array ends at the layer of the arrays the region found (the blocks' cover); the region found the node
  features as launched, the aggregates in the second window, the two transposed halves of the weights and the bias
  row (the host operations before it): so the result is the layer as one function of the four arguments.
-/
import proofs.«100620_j74491912781907_2_alg».proof.Proof.ArrayValue
import proofs.«100620_j74491912781907_2_alg».proof.Proof.HostValue
import proofs.«100620_j74491912781907_2_alg».proof.Proof.SageSpec

noncomputable section

namespace Cert.KernelIdeal.KernelValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The layer on the arrays the region finds is the layer of the arguments. -/
theorem wholeLayer_eq (c : Dev nD) :
    Cert.KernelIdeal.ArrayValue.wholeLayer m c
      = Cert.Sage.G (m ((c : Thread nD τ).loc main_arg0)) (m ((c : Thread nD τ).loc main_arg1))
          (m ((c : Thread nD τ).loc main_arg2)) (m ((c : Thread nD τ).loc main_arg3)) := by
  unfold Cert.KernelIdeal.ArrayValue.wholeLayer Cert.Sage.G
  rw [Cert.KernelIdeal.HostValue.V_agg m c, Cert.KernelIdeal.HostValue.V_w1 m c, Cert.KernelIdeal.HostValue.V_w2 m c,
    Cert.KernelIdeal.HostValue.V_b m c, V_main_arg0 m c]

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v123)
        = Cert.Sage.G (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (wholeLayer_eq m c), (h c).2⟩)
    (Cert.KernelIdeal.ArrayValue.run m ρ)

end Cert.KernelIdeal.KernelValue

end
-- ==== Proof.RefValue.lean ====
/-
  The reference computes the layer.

  Read one operation at a time: the gathered messages are rows of x at the clamped, normalised source words; the two
  segment sums (of the messages, and of ones) are zero plus the node's aggregate in the 64 feature columns and in
  the count column; their quotient is the mean; the product of [x | mean] with the transposed weights is a sum
  over 128 terms, which is the sum over the first 64 (x against the first half of the weights) plus the sum over the
  last 64 (the mean against the second half); the bias and the maximum with zero follow.  Splitting the 128-term sum
  uses associativity and commutativity of addition only.
-/
import proofs.«100620_j74491912781907_2_alg».proof.Proof.Gen.ReferenceIdeal.Read
import proofs.«100620_j74491912781907_2_alg».proof.Proof.SageSpec
import proofs.«100620_j74491912781907_2_alg».proof.Proof.LibScatter
import proofs.«100620_j74491912781907_2_alg».proof.Proof.LibDense
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.RowOps
open scoped BigOperators

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S64, .f32⟩ : BufTy).Contents (Elt Ideal))

/-- A sum over 128 terms is the sum over the first 64 plus the sum over the last 64. -/
theorem sum_128_split {M : Type*} [AddCommMonoid M] (f : Fin 128 → M) :
    ∑ k, f k = (∑ k : Fin 64, f (⟨k.val, by omega⟩ : Fin 128)) + ∑ k : Fin 64, f (⟨64 + k.val, by omega⟩ : Fin 128) :=
  Fin.sum_univ_add (fun i : Fin (64 + 64) => f i)

/-- The destination word of edge e. -/
theorem dst_apply (e : Fin 1600000) : val_main_v1 (F := Ideal) x1 (ix1 e) = x1 (ix2 (0 : Fin 2) e) := by
  rw [val_main_v1_apply, val_main_v0_apply]
  exact congrArg x1 (funext fun a => Fin.ext (by
    match a with
    | ⟨0, _⟩ => rfl
    | ⟨1, _⟩ => exact Nat.mod_eq_of_lt e.isLt))

/-- The source word of edge e. -/
theorem srcw_apply (e : Fin 1600000) : val_main_v3 (F := Ideal) x1 (ix1 e) = x1 (ix2 (1 : Fin 2) e) := by
  rw [val_main_v3_apply, val_main_v2_apply]
  exact congrArg x1 (funext fun a => Fin.ext (by
    match a with
    | ⟨0, _⟩ => rfl
    | ⟨1, _⟩ => exact Nat.mod_eq_of_lt e.isLt))

/-- The column of normalised source words at edge e. -/
theorem srcCol_apply (e : Fin 1600000) :
    val_main_v9 (F := Ideal) x1 (ix2 e (0 : Fin 1)) = Cert.Sage.normCol (x1 (ix2 (1 : Fin 2) e)) := by
  have hi : idx_main_v9 (ix2 e (0 : Fin 1)) = ix1 e := funext fun a => Fin.ext (by match a with | ⟨0, _⟩ => rfl)
  rw [val_main_v9_apply, hi, val_main_v8_apply, val_main_v5_apply, val_main_v7_apply, val_main_v4_apply, val_main_v6_apply,
    val_main_c_apply, val_main_c_0_apply, srcw_apply]
  rfl

/-- The two columns of destination words at edge e. -/
theorem dstCol_apply (e : Fin 1600000) : val_main_v12 (F := Ideal) x1 (ix2 e (0 : Fin 1)) = x1 (ix2 (0 : Fin 2) e) := by
  have hi : idx_main_v12 (ix2 e (0 : Fin 1)) = ix1 e := funext fun a => Fin.ext (by match a with | ⟨0, _⟩ => rfl)
  rw [val_main_v12_apply, hi, dst_apply]

theorem dstCol'_apply (e : Fin 1600000) : val_main_v16 (F := Ideal) x1 (ix2 e (0 : Fin 1)) = x1 (ix2 (0 : Fin 2) e) := by
  have hi : idx_main_v16 (ix2 e (0 : Fin 1)) = ix1 e := funext fun a => Fin.ext (by match a with | ⟨0, _⟩ => rfl)
  rw [val_main_v16_apply, hi, dst_apply]

/-- The segment sum of the messages at (n, k): zero plus feature column k of node n's aggregate. -/
theorem nsum_apply (n : Fin 100000) (k : Fin 64) :
    val_main_v13 (F := Ideal) x0 x1 (ix2 n k)
      = Ideal.ofBits .f32 0x00000000#32 + Cert.Sage.agg x0 x1 n (⟨k.val, by omega⟩ : Fin 65) := by
  unfold val_main_v13
  refine (host_rowScatterAdd_apply Facts₀.scatter_S100000x64_S1600000x1_S1600000x64_1_0_0_1_wf _ _ _ n k).trans ?_
  refine congrArg₂ (· + ·) ?_ ?_
  · rw [val_main_v11_apply, val_main_cst_apply]; rfl
  · unfold Cert.Sage.agg
    refine Finset.sum_congr (Finset.filter_congr fun e _ => by rw [dstCol_apply]) fun e _ => ?_
    unfold val_main_v10 Cert.Sage.edgeTerm
    rw [dif_pos (show ((⟨k.val, by omega⟩ : Fin 65)).val < 64 from k.isLt)]
    refine (rowGather_apply Facts₀.gather_S100000x64_S1600000x1_S1600000x64_1_0_n_n_0_1_164_wf (by norm_num) x0 _ e k).trans ?_
    refine congrArg x0 (congrArg (fun r => ix2 r k) (Fin.ext ?_))
    show min (val_main_v9 (F := Ideal) x1 (ix2 e (0 : Fin 1))).toInt.toNat (100000 - 1) = _
    rw [srcCol_apply]
    rfl

/-- The segment sum of ones at n: zero plus the count column of node n's aggregate. -/
theorem cnt_apply (n : Fin 100000) :
    val_main_v17 (F := Ideal) x1 (ix2 n (0 : Fin 1))
      = Ideal.ofBits .f32 0x00000000#32 + Cert.Sage.agg x0 x1 n (⟨64, by omega⟩ : Fin 65) := by
  unfold val_main_v17
  refine (host_rowScatterAdd_apply Facts₀.scatter_S100000x1_S1600000x1_S1600000x1_1_0_0_1_wf _ _ _ n (0 : Fin 1)).trans ?_
  refine congrArg₂ (· + ·) ?_ ?_
  · rw [val_main_v15_apply, val_main_cst_2_apply]; rfl
  · unfold Cert.Sage.agg
    refine Finset.sum_congr (Finset.filter_congr fun e _ => by rw [dstCol'_apply]) fun e _ => ?_
    unfold Cert.Sage.edgeTerm
    rw [dif_neg (show ¬ ((⟨64, by omega⟩ : Fin 65)).val < 64 from by decide), val_main_v14_apply, val_main_cst_1_apply]
    rfl

/-- The mean at (n, k). -/
theorem mean_apply (n : Fin 100000) (k : Fin 64) :
    val_main_v21 (F := Ideal) x0 x1 (ix2 n k)
      = Ideal.div (Cert.Sage.agg x0 x1 n (⟨k.val, by omega⟩ : Fin 65))
          (Cert.Sage.agg x0 x1 n (⟨64, by omega⟩ : Fin 65) + Ideal.ofBits .f32 0x3089705F#32) := by
  have hi : idx_main_v20 (ix2 n k) = ix2 n (0 : Fin 1) := funext fun a => Fin.ext (by
    match a with
    | ⟨0, _⟩ => rfl
    | ⟨1, _⟩ => rfl)
  rw [val_main_v21_apply, nsum_apply, val_main_v20_apply, hi, val_main_v19_apply, cnt_apply x0, val_main_v18_apply,
    val_main_cst_3_apply, Ideal.ofBits_zero_f32, zero_add, zero_add]
  rfl

/-- [x | mean] at (n, k) for k in the first half: x. -/
theorem cat_left (n : Fin 100000) (k : Fin 64) :
    val_main_v22 (F := Ideal) x0 x1 (ix2 n (⟨k.val, by omega⟩ : Fin 128)) = x0 (ix2 n k) := by
  unfold val_main_v22
  rw [Cert.LibDense.concat_cols_apply (by norm_num) x0 _ Facts₀.concatenates_S100000x64_S100000x64_S100000x128_d1 n _,
    dif_pos (show ((⟨k.val, by omega⟩ : Fin 128)).val < 64 from k.isLt)]

/-- [x | mean] at (n, 64 + k): the mean. -/
theorem cat_right (n : Fin 100000) (k : Fin 64) :
    val_main_v22 (F := Ideal) x0 x1 (ix2 n (⟨64 + k.val, by omega⟩ : Fin 128)) = val_main_v21 (F := Ideal) x0 x1 (ix2 n k) := by
  unfold val_main_v22
  rw [Cert.LibDense.concat_cols_apply (by norm_num) x0 _ Facts₀.concatenates_S100000x64_S100000x64_S100000x128_d1 n _,
    dif_neg (show ¬ ((⟨64 + k.val, by omega⟩ : Fin 128)).val < 64 from by show ¬ (64 + k.val < 64); omega)]
  exact congrArg _ (congrArg (ix2 n) (Fin.ext (by show 64 + k.val - 64 = k.val; omega)))

/-- THE REFERENCE'S RESULT AT (n, o). -/
theorem ref_apply (n : Fin 100000) (o : Fin 64) :
    val_main_v28 (F := Ideal) x0 x1 x2 x3 (ix2 n o) = Cert.Sage.G x0 x1 x2 x3 (ix2 n o) := by
  have hb : idx_main_v25 (idx_main_v26 (ix2 n o)) = ix1 o := funext fun a => Fin.ext (by match a with | ⟨0, _⟩ => rfl)
  have hl : ∀ k : Fin 128, lidx_main_v24 (ix2 n o) k = ix2 n k := fun k => funext fun a => Fin.ext (by
    match a with
    | ⟨0, _⟩ => rfl
    | ⟨1, _⟩ => rfl)
  have hr : ∀ k : Fin 128, idx_main_v23 (ridx_main_v24 (ix2 n o) k) = ix2 o k := fun k => funext fun a => Fin.ext (by
    match a with
    | ⟨0, _⟩ => rfl
    | ⟨1, _⟩ => rfl)
  rw [val_main_v28_apply, val_main_v27_apply, val_main_v24_apply, val_main_call0_v0_apply, val_main_call0_cst_apply,
    val_main_v26_apply, val_main_v25_apply, hb]
  simp only [hl, val_main_v23_apply, hr]
  rw [sum_128_split]
  simp only [cat_left, cat_right, mean_apply]
  rfl

/-- The reference's result is the layer. -/
theorem ref_eq : val_main_v28 (F := Ideal) x0 x1 x2 x3 = Cert.Sage.G x0 x1 x2 x3 := by
  funext i
  obtain ⟨n, o, rfl⟩ : ∃ (n : Fin 100000) (o : Fin 64), i = ix2 n o := ⟨i 0, i 1, eq_ix2 i⟩
  exact ref_apply x0 x1 x2 x3 n o

end Cert.ReferenceIdeal.RefValue

end
-- ==== Proof.lean ====
/-
  A GraphSAGE layer with mean aggregation, computed two ways, is one function on the extended reals.

  Both programs take node features x : [100000, 64], edges ei : [2, 1600000], weights W : [64, 128] and a bias
  b : [64].  Node n's aggregate is the sum, over the edges into n, of the source node's feature row, together with
  the number of those edges; the mean is the sum over (count + eps); the output is
  max([x | mean] · Wᵀ + b, 0).

  The reference sums all 1600000 edges at once and multiplies the joined [x | mean] : [100000, 128] by Wᵀ.
  The kernel's host part sums the edges in eight chunks of 200000, features and count in one array of 65 columns,
  and its tiles multiply x by the first half of Wᵀ and the mean by the second half and add the two products.
  The two agree because a sum over the edges is the sum of its eight chunks' sums, and a sum over 128 products is the
  sum of the first 64 plus the sum of the last 64: both are regroupings of a finite sum, valid on the extended reals
  without any finiteness, so the precondition is never opened.  The changes of float format on the way into the
  kernel's products are the identity on the extended reals.  Nothing of the kernel was rewritten by idealization, so
  the third claim is trivial; the frames are the generated ones (the reference's is its run with the result dropped).
-/
import proofs.«100620_j74491912781907_2_alg».proof.Defs
import proofs.«100620_j74491912781907_2_alg».proof.Proof.Gen.Kernel
import proofs.«100620_j74491912781907_2_alg».proof.Proof.Gen.Kernel.Skeleton
import proofs.«100620_j74491912781907_2_alg».proof.Proof.Gen.Kernel.Launch
import proofs.«100620_j74491912781907_2_alg».proof.Proof.Gen.Kernel.Points
import proofs.«100620_j74491912781907_2_alg».proof.Proof.Gen.Kernel.Frame
import proofs.«100620_j74491912781907_2_alg».proof.Proof.Gen.KernelIdeal
import proofs.«100620_j74491912781907_2_alg».proof.Proof.Gen.KernelIdeal.Skeleton
import proofs.«100620_j74491912781907_2_alg».proof.Proof.Gen.KernelIdeal.Launch
import proofs.«100620_j74491912781907_2_alg».proof.Proof.Gen.KernelIdeal.Points
import proofs.«100620_j74491912781907_2_alg».proof.Proof.Gen.KernelIdeal.Frame
import proofs.«100620_j74491912781907_2_alg».proof.Proof.Gen.ReferenceIdeal
import proofs.«100620_j74491912781907_2_alg».proof.Proof.Gen.KernelIdeal.Value
import proofs.«100620_j74491912781907_2_alg».proof.Proof.Gen.ReferenceIdeal.Run
import proofs.«100620_j74491912781907_2_alg».proof.Proof.Gen.ReferenceIdeal.Read
import proofs.«100620_j74491912781907_2_alg».proof.Proof.Gen.Pre_finite_inputs
import proofs.«100620_j74491912781907_2_alg».proof.Proof.KernelValue
import proofs.«100620_j74491912781907_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Idealization rewrote nothing. -/
theorem preserves : Cert.preserves_Kernel_KernelIdeal := trivial

/-- From memories agreeing on the four arguments both programs end with the layer of those arguments. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v28_eq _ _ _ _).trans (Cert.ReferenceIdeal.RefValue.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
